-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S32x4096 : Shape := ⟨2, ![32, 4096]⟩
abbrev S600x128 : Shape := ⟨2, ![600, 128]⟩
abbrev S26x128 : Shape := ⟨2, ![26, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S600x128 : S_.BroadcastsInDim S600x128 (![] : Fin 0 → Fin S600x128.rank)
  reducesTo_S600x128_S_d0_1 : S600x128.ReducesTo [0, 1] S_
  h_S_ : 0 < S_.numel
  bcast_S_S26x128 : S_.BroadcastsInDim S26x128 (![] : Fin 0 → Fin S26x128.rank)
  reducesTo_S26x128_S_d0_1 : S26x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : IVec S32x512 32) (main_arg1 : IVec S32x4096 32) (main_arg2 : FVec F S600x128 .f32) (main_arg3 : FVec F S26x128 .f32) (main_arg4 : FVec F S256x64 .f32) (main_arg5 : FVec F S64 .f32) (main_arg6 : FVec F S64x1 .f32) (main_arg7 : FVec F S1 .f32) : IVec S_ 1 :=
  let main_v0 : FVec F S600x128 .f32 := Host.absf main_arg2
  let main_cst : FVec F S_ .f32 := constant S_ .f32 0x7F800000#32
  let main_v1 : FVec F S600x128 .f32 := broadcastInDim S600x128 ![] bcast_S_S600x128 main_cst
  let main_v2 : IVec S600x128 1 := cmpf .olt main_v0 main_v1
  let main_c : IVec S_ 1 := constantI S_ 1 1#1
  let main_v3 : IVec S_ 1 := (fun x v => Host.reduce IntOp.andi x v reducesTo_S600x128_S_d0_1 h_S_) main_v2 main_c
  let main_v4 : FVec F S26x128 .f32 := Host.absf main_arg3
  let main_cst_0 : FVec F S_ .f32 := constant S_ .f32 0x7F800000#32
  let main_v5 : FVec F S26x128 .f32 := broadcastInDim S26x128 ![] bcast_S_S26x128 main_cst_0
  let main_v6 : IVec S26x128 1 := cmpf .olt main_v4 main_v5
  let main_c_1 : IVec S_ 1 := constantI S_ 1 1#1
  let main_v7 : IVec S_ 1 := (fun x v => Host.reduce IntOp.andi x v reducesTo_S26x128_S_d0_1 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S32x512 : Shape := ⟨2, ![32, 512]⟩
abbrev S32x4096 : Shape := ⟨2, ![32, 4096]⟩
abbrev S600x128 : Shape := ⟨2, ![600, 128]⟩
abbrev S26x128 : Shape := ⟨2, ![26, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S32x512x1 : Shape := ⟨3, ![32, 512, 1]⟩
abbrev S32x512x128 : Shape := ⟨3, ![32, 512, 128]⟩
abbrev S32x4096x1 : Shape := ⟨3, ![32, 4096, 1]⟩
abbrev S32x4096x128 : Shape := ⟨3, ![32, 4096, 128]⟩
abbrev S32x1x128 : Shape := ⟨3, ![32, 1, 128]⟩
abbrev S1x512x128 : Shape := ⟨3, ![1, 512, 128]⟩
abbrev S1x4096x128 : Shape := ⟨3, ![1, 4096, 128]⟩
abbrev S1x1x128 : Shape := ⟨3, ![1, 1, 128]⟩
abbrev S512x128 : Shape := ⟨2, ![512, 128]⟩
abbrev S4096x128 : Shape := ⟨2, ![4096, 128]⟩
abbrev S512x4096 : Shape := ⟨2, ![512, 4096]⟩
abbrev S4096x512 : Shape := ⟨2, ![4096, 512]⟩
abbrev S512 : Shape := ⟨1, ![512]⟩
abbrev S512x1 : Shape := ⟨2, ![512, 1]⟩
abbrev S4096 : Shape := ⟨1, ![4096]⟩
abbrev S4096x1 : Shape := ⟨2, ![4096, 1]⟩
abbrev S1x1 : Shape := ⟨2, ![1, 1]⟩
abbrev S128 : Shape := ⟨1, ![128]⟩
abbrev S1x128 : Shape := ⟨2, ![1, 128]⟩
abbrev S32x128 : Shape := ⟨2, ![32, 128]⟩
abbrev S32x256 : Shape := ⟨2, ![32, 256]⟩
abbrev S32x64 : Shape := ⟨2, ![32, 64]⟩
abbrev S1x64 : Shape := ⟨2, ![1, 64]⟩
abbrev S32x1 : Shape := ⟨2, ![32, 1]⟩

abbrev nBuf : Space → Nat
  | .hbm => 44
  | .vmem => 8
  | .smem => 0
  | _ => 0

abbrev bufTy : (tb : Table) → Fin (tcTables nBuf tb) → BufTy
  | .hbm, ⟨0, _⟩ => ⟨S32x512, .i32⟩
  | .hbm, ⟨1, _⟩ => ⟨S32x4096, .i32⟩
  | .hbm, ⟨2, _⟩ => ⟨S600x128, .f32⟩
  | .hbm, ⟨3, _⟩ => ⟨S26x128, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .i32⟩
  | .hbm, ⟨9, _⟩ => ⟨S32x512, .i32⟩
  | .hbm, ⟨10, _⟩ => ⟨S32x512, .i1⟩
  | .hbm, ⟨11, _⟩ => ⟨S_, .i32⟩
  | .hbm, ⟨12, _⟩ => ⟨S32x512, .i32⟩
  | .hbm, ⟨13, _⟩ => ⟨S32x512, .i32⟩
  | .hbm, ⟨14, _⟩ => ⟨S32x512, .i32⟩
  | .hbm, ⟨15, _⟩ => ⟨S32x512x1, .i32⟩
  | .hbm, ⟨16, _⟩ => ⟨S32x512x128, .f32⟩
  | .hbm, ⟨17, _⟩ => ⟨S32x512x128, .bf16⟩
  | .hbm, ⟨18, _⟩ => ⟨S_, .i32⟩
  | .hbm, ⟨19, _⟩ => ⟨S32x4096, .i32⟩
  | .hbm, ⟨20, _⟩ => ⟨S32x4096, .i1⟩
  | .hbm, ⟨21, _⟩ => ⟨S_, .i32⟩
  | .hbm, ⟨22, _⟩ => ⟨S32x4096, .i32⟩
  | .hbm, ⟨23, _⟩ => ⟨S32x4096, .i32⟩
  | .hbm, ⟨24, _⟩ => ⟨S32x4096, .i32⟩
  | .hbm, ⟨25, _⟩ => ⟨S32x4096x1, .i32⟩
  | .hbm, ⟨26, _⟩ => ⟨S32x4096x128, .f32⟩
  | .hbm, ⟨27, _⟩ => ⟨S32x4096x128, .bf16⟩
  | .hbm, ⟨28, _⟩ => ⟨S32x1x128, .f32⟩
  | .hbm, ⟨29, _⟩ => ⟨S32x1x128, .f32⟩
  | .hbm, ⟨30, _⟩ => ⟨S32x128, .f32⟩
  | .hbm, ⟨31, _⟩ => ⟨S32x128, .f32⟩
  | .hbm, ⟨32, _⟩ => ⟨S32x256, .f32⟩
  | .hbm, ⟨33, _⟩ => ⟨S32x64, .f32⟩
  | .hbm, ⟨34, _⟩ => ⟨S1x64, .f32⟩
  | .hbm, ⟨35, _⟩ => ⟨S32x64, .f32⟩
  | .hbm, ⟨36, _⟩ => ⟨S32x64, .f32⟩
  | .hbm, ⟨37, _⟩ => ⟨S_, .f32⟩
  | .hbm, ⟨38, _⟩ => ⟨S32x64, .f32⟩
  | .hbm, ⟨39, _⟩ => ⟨S32x64, .f32⟩
  | .hbm, ⟨40, _⟩ => ⟨S32x1, .f32⟩
  | .hbm, ⟨41, _⟩ => ⟨S1x1, .f32⟩
  | .hbm, ⟨42, _⟩ => ⟨S32x1, .f32⟩
  | .hbm, ⟨43, _⟩ => ⟨S32x1, .f32⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bitsLt_bf16_f32 : FTy.bits .bf16 < FTy.bits .f32
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S512x4096_S512 : S512x4096.Reduces [1] S512
  shapeCasts_S512_S512x1 : S512.ShapeCasts S512x1
  reduces_S4096x512_S4096 : S4096x512.Reduces [1] S4096
  shapeCasts_S4096_S4096x1 : S4096.ShapeCasts S4096x1
  reduces_S512x1_S1 : S512x1.Reduces [0] S1
  shapeCasts_S1_S1x1 : S1.ShapeCasts S1x1
  broadcasts_S1x1_S512x1 : S1x1.Broadcasts S512x1
  reduces_S4096x1_S1 : S4096x1.Reduces [0] S1
  broadcasts_S1x1_S4096x1 : S1x1.Broadcasts S4096x1
  broadcasts_S512x1_S512x128 : S512x1.Broadcasts S512x128
  reduces_S512x128_S128 : S512x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  broadcasts_S4096x1_S4096x128 : S4096x1.Broadcasts S4096x128
  reduces_S4096x128_S128 : S4096x128.Reduces [0] S128
  shapeCasts_S32x1x128_S32x128 : S32x1x128.ShapeCasts S32x128
  concatenates_S32x128_S32x128_S32x256_d1 : Shape.Concatenates [S32x128, S32x128] S32x256 1
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  gather_S600x128_S32x512x1_S32x512x128_2_0_n_n_0_2_1128_wf : GatherDims.WF S600x128 S32x512x1 S32x512x128 [2] [0] [] [0] [] 2 ![1, 128]
  gather_S26x128_S32x4096x1_S32x4096x128_2_0_n_n_0_2_1128_wf : GatherDims.WF S26x128 S32x4096x1 S32x4096x128 [2] [0] [] [0] [] 2 ![1, 128]
  dot_S512x128_S4096x128_S512x4096_1_1_0_0_n_n_wf : DotDims.WF S512x128 S4096x128 S512x4096 [1] [1] [0] [0] [] []
  dot_S4096x128_S512x128_S4096x512_1_1_0_0_n_n_wf : DotDims.WF S4096x128 S512x128 S4096x512 [1] [1] [0] [0] [] []
  dot_S32x256_S256x64_S32x64_1_0_0_1_n_n_wf : DotDims.WF S32x256 S256x64 S32x64 [1] [0] [0] [1] [] []
  dot_S32x64_S64x1_S32x1_1_0_0_1_n_n_wf : DotDims.WF S32x64 S64x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S32x512x128.size a
  hwx0_0 : ∀ i : grid0.Coords, EltTy.bits .bf16 = 32 ∨ (Rect.block (s := S32x512x128) S1x512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S32x4096x128.size a
  hwx0_1 : ∀ i : grid0.Coords, EltTy.bits .bf16 = 32 ∨ (Rect.block (s := S32x4096x128) S1x4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .f32 = 32 ∨ (Rect.block (s := S32x1x128) S1x1x128.size (cc0_transform_3 i) (hinb0_3 i)).WholeWords (EltTy.packing .f32)

variable [Facts₀]

def gather_S600x128_S32x512x1_S32x512x128_2_0_n_n_0_2_1128 : GatherDims S600x128 S32x512x1 S32x512x128 where
  offsetDims := [2]
  collapsedSliceDims := [0]
  operandBatchingDims := []
  startIndicesBatchingDims := []
  startIndexMap := [0]
  indexVectorDim := 2
  sliceSizes := ![1, 128]
  wf := gather_S600x128_S32x512x1_S32x512x128_2_0_n_n_0_2_1128_wf
def gather_S26x128_S32x4096x1_S32x4096x128_2_0_n_n_0_2_1128 : GatherDims S26x128 S32x4096x1 S32x4096x128 where
  offsetDims := [2]
  collapsedSliceDims := [0]
  operandBatchingDims := []
  startIndicesBatchingDims := []
  startIndexMap := [0]
  indexVectorDim := 2
  sliceSizes := ![1, 128]
  wf := gather_S26x128_S32x4096x1_S32x4096x128_2_0_n_n_0_2_1128_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf
def dot_S4096x128_S512x128_S4096x512_1_1_0_0_n_n : DotDims S4096x128 S512x128 S4096x512 where
  lhsContracting := [1]
  rhsContracting := [1]
  lhsNonContracting := [0]
  rhsNonContracting := [0]
  lhsBatch := []
  rhsBatch := []
  wf := dot_S4096x128_S512x128_S4096x512_1_1_0_0_n_n_wf
def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

abbrev win0_0 : Pipeline.Window sig grid0 :=
  Pipeline.Window.ofSpec (Memref.whole main_v7) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512 : Shape := ⟨2, ![32, 512]⟩
abbrev S32x4096 : Shape := ⟨2, ![32, 4096]⟩
abbrev S600x128 : Shape := ⟨2, ![600, 128]⟩
abbrev S26x128 : Shape := ⟨2, ![26, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S32x512x1 : Shape := ⟨3, ![32, 512, 1]⟩
abbrev S32x512x128 : Shape := ⟨3, ![32, 512, 128]⟩
abbrev S32x4096x1 : Shape := ⟨3, ![32, 4096, 1]⟩
abbrev S32x4096x128 : Shape := ⟨3, ![32, 4096, 128]⟩
abbrev S32x512x4096 : Shape := ⟨3, ![32, 512, 4096]⟩
abbrev S32 : Shape := ⟨1, ![32]⟩
abbrev S32x1 : Shape := ⟨2, ![32, 1]⟩
abbrev S32x128 : Shape := ⟨2, ![32, 128]⟩
abbrev S32x256 : Shape := ⟨2, ![32, 256]⟩
abbrev S32x64 : Shape := ⟨2, ![32, 64]⟩
abbrev S1x64 : Shape := ⟨2, ![1, 64]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S32x512, .i32⟩
  | .hbm, ⟨1, _⟩ => ⟨S32x4096, .i32⟩
  | .hbm, ⟨2, _⟩ => ⟨S600x128, .f32⟩
  | .hbm, ⟨3, _⟩ => ⟨S26x128, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .i32⟩
  | .hbm, ⟨9, _⟩ => ⟨S32x512, .i32⟩
  | .hbm, ⟨10, _⟩ => ⟨S32x512, .i1⟩
  | .hbm, ⟨11, _⟩ => ⟨S_, .i32⟩
  | .hbm, ⟨12, _⟩ => ⟨S32x512, .i32⟩
  | .hbm, ⟨13, _⟩ => ⟨S32x512, .i32⟩
  | .hbm, ⟨14, _⟩ => ⟨S32x512, .i32⟩
  | .hbm, ⟨15, _⟩ => ⟨S32x512x1, .i32⟩
  | .hbm, ⟨16, _⟩ => ⟨S32x512x128, .f32⟩
  | .hbm, ⟨17, _⟩ => ⟨S_, .i32⟩
  | .hbm, ⟨18, _⟩ => ⟨S32x4096, .i32⟩
  | .hbm, ⟨19, _⟩ => ⟨S32x4096, .i1⟩
  | .hbm, ⟨20, _⟩ => ⟨S_, .i32⟩
  | .hbm, ⟨21, _⟩ => ⟨S32x4096, .i32⟩
  | .hbm, ⟨22, _⟩ => ⟨S32x4096, .i32⟩
  | .hbm, ⟨23, _⟩ => ⟨S32x4096, .i32⟩
  | .hbm, ⟨24, _⟩ => ⟨S32x4096x1, .i32⟩
  | .hbm, ⟨25, _⟩ => ⟨S32x4096x128, .f32⟩
  | .hbm, ⟨26, _⟩ => ⟨S32x512x4096, .f32⟩
  | .hbm, ⟨27, _⟩ => ⟨S_, .f32⟩
  | .hbm, ⟨28, _⟩ => ⟨S32x512, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32x1, .f32⟩
  | .hbm, ⟨35, _⟩ => ⟨S32x512, .f32⟩
  | .hbm, ⟨36, _⟩ => ⟨S32x512, .f32⟩
  | .hbm, ⟨37, _⟩ => ⟨S32x512, .f32⟩
  | .hbm, ⟨38, _⟩ => ⟨S_, .f32⟩
  | .hbm, ⟨39, _⟩ => ⟨S32, .f32⟩
  | .hbm, ⟨40, _⟩ => ⟨S32x1, .f32⟩
  | .hbm, ⟨41, _⟩ => ⟨S32x512, .f32⟩
  | .hbm, ⟨42, _⟩ => ⟨S32x512, .f32⟩
  | .hbm, ⟨43, _⟩ => ⟨S32x512x1, .f32⟩
  | .hbm, ⟨44, _⟩ => ⟨S_, .f32⟩
  | .hbm, ⟨45, _⟩ => ⟨S32x4096, .f32⟩
  | .hbm, ⟨46, _⟩ => ⟨S_, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S32x1, .f32⟩
  | .hbm, ⟨52, _⟩ => ⟨S32x4096, .f32⟩
  | .hbm, ⟨53, _⟩ => ⟨S32x4096, .f32⟩
  | .hbm, ⟨54, _⟩ => ⟨S32x4096, .f32⟩
  | .hbm, ⟨55, _⟩ => ⟨S_, .f32⟩
  | .hbm, ⟨56, _⟩ => ⟨S32, .f32⟩
  | .hbm, ⟨57, _⟩ => ⟨S32x1, .f32⟩
  | .hbm, ⟨58, _⟩ => ⟨S32x4096, .f32⟩
  | .hbm, ⟨59, _⟩ => ⟨S32x4096, .f32⟩
  | .hbm, ⟨60, _⟩ => ⟨S32x4096x1, .f32⟩
  | .hbm, ⟨61, _⟩ => ⟨S32x512x128, .f32⟩
  | .hbm, ⟨62, _⟩ => ⟨S32x512x128, .f32⟩
  | .hbm, ⟨63, _⟩ => ⟨S_, .f32⟩
  | .hbm, ⟨64, _⟩ => ⟨S32x128, .f32⟩
  | .hbm, ⟨65, _⟩ => ⟨S32x4096x128, .f32⟩
  | .hbm, ⟨66, _⟩ => ⟨S32x4096x128, .f32⟩
  | .hbm, ⟨67, _⟩ => ⟨S_, .f32⟩
  | .hbm, ⟨68, _⟩ => ⟨S32x128, .f32⟩
  | .hbm, ⟨69, _⟩ => ⟨S32x256, .f32⟩
  | .hbm, ⟨70, _⟩ => ⟨S32x64, .f32⟩
  | .hbm, ⟨71, _⟩ => ⟨S1x64, .f32⟩
  | .hbm, ⟨72, _⟩ => ⟨S32x64, .f32⟩
  | .hbm, ⟨73, _⟩ => ⟨S32x64, .f32⟩
  | .hbm, ⟨74, _⟩ => ⟨S_, .f32⟩
  | .hbm, ⟨75, _⟩ => ⟨S32x64, .f32⟩
  | .hbm, ⟨76, _⟩ => ⟨S32x64, .f32⟩
  | .hbm, ⟨77, _⟩ => ⟨S32x1, .f32⟩
  | .hbm, ⟨78, _⟩ => ⟨S1x1, .f32⟩
  | .hbm, ⟨79, _⟩ => ⟨S32x1, .f32⟩
  | .hbm, ⟨80, _⟩ => ⟨S32x1, .f32⟩
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_cst : Ref sig .tc := ⟨.hbm, 74, rfl⟩
abbrev main_call0_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  reducesTo_S32x512x4096_S32x512_d2 : S32x512x4096.ReducesTo [2] S32x512
  h_S_ : 0 < S_.numel
  reducesTo_S32x512_S32_d1 : S32x512.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x512_0_1 : S32x1.BroadcastsInDim S32x512 (![0, 1] : Fin 2 → Fin S32x512.rank)
  reducesTo_S32x512x4096_S32x4096_d1 : S32x512x4096.ReducesTo [1] S32x4096
  reducesTo_S32x4096_S32_d1 : S32x4096.ReducesTo [1] S32
  bcast_S32x1_S32x4096_0_1 : S32x1.BroadcastsInDim S32x4096 (![0, 1] : Fin 2 → Fin S32x4096.rank)
  bcast_S32x512x1_S32x512x128_0_1_2 : S32x512x1.BroadcastsInDim S32x512x128 (![0, 1, 2] : Fin 3 → Fin S32x512x128.rank)
  reducesTo_S32x512x128_S32x128_d1 : S32x512x128.ReducesTo [1] S32x128
  bcast_S32x4096x1_S32x4096x128_0_1_2 : S32x4096x1.BroadcastsInDim S32x4096x128 (![0, 1, 2] : Fin 3 → Fin S32x4096x128.rank)
  reducesTo_S32x4096x128_S32x128_d1 : S32x4096x128.ReducesTo [1] S32x128
  concatenates_S32x128_S32x128_S32x256_d1 : Shape.Concatenates [S32x128, S32x128] S32x256 1
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  gather_S600x128_S32x512x1_S32x512x128_2_0_n_n_0_2_1128_wf : GatherDims.WF S600x128 S32x512x1 S32x512x128 [2] [0] [] [0] [] 2 ![1, 128]
  gather_S26x128_S32x4096x1_S32x4096x128_2_0_n_n_0_2_1128_wf : GatherDims.WF S26x128 S32x4096x1 S32x4096x128 [2] [0] [] [0] [] 2 ![1, 128]
  dot_S32x512x128_S32x4096x128_S32x512x4096_2_2_1_1_0_0_wf : DotDims.WF S32x512x128 S32x4096x128 S32x512x4096 [2] [2] [1] [1] [0] [0]
  dot_S32x256_S256x64_S32x64_1_0_0_1_n_n_wf : DotDims.WF S32x256 S256x64 S32x64 [1] [0] [0] [1] [] []
  dot_S32x64_S64x1_S32x1_1_0_0_1_n_n_wf : DotDims.WF S32x64 S64x1 S32x1 [1] [0] [0] [1] [] []

variable [Facts₀]

def gather_S600x128_S32x512x1_S32x512x128_2_0_n_n_0_2_1128 : GatherDims S600x128 S32x512x1 S32x512x128 where
  offsetDims := [2]
  collapsedSliceDims := [0]
  operandBatchingDims := []
  startIndicesBatchingDims := []
  startIndexMap := [0]
  indexVectorDim := 2
  sliceSizes := ![1, 128]
  wf := gather_S600x128_S32x512x1_S32x512x128_2_0_n_n_0_2_1128_wf
def gather_S26x128_S32x4096x1_S32x4096x128_2_0_n_n_0_2_1128 : GatherDims S26x128 S32x4096x1 S32x4096x128 where
  offsetDims := [2]
  collapsedSliceDims := [0]
  operandBatchingDims := []
  startIndicesBatchingDims := []
  startIndexMap := [0]
  indexVectorDim := 2
  sliceSizes := ![1, 128]
  wf := gather_S26x128_S32x4096x1_S32x4096x128_2_0_n_n_0_2_1128_wf
def dot_S32x512x128_S32x4096x128_S32x512x4096_2_2_1_1_0_0 : DotDims S32x512x128 S32x4096x128 S32x512x4096 where
  lhsContracting := [2]
  rhsContracting := [2]
  lhsNonContracting := [1]
  rhsNonContracting := [1]
  lhsBatch := [0]
  rhsBatch := [0]
  wf := dot_S32x512x128_S32x4096x128_S32x512x4096_2_2_1_1_0_0_wf
def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

class Facts : Prop extends Facts₀ where

variable [Facts]
-- ==== Proof.Spec.lean ====
/-
  ATTENTION POOLING OF ONE BATCH, AS A FUNCTION OF ITS TWO FEATURE BLOCKS.

  A batch has a block d of L rows and a block p of M rows, each row H numbers. Their affinity is the L-by-M matrix of
  row products, aff l m = ∑ k, d l k · p m k. Each row l of d is weighted by the softmax, over l, of its largest
  affinity (the maximum over m of aff l m), and the weighted rows are added up: a vector of H numbers. Each row m of p
  is weighted likewise by the softmax, over m, of the maximum over l of aff l m. Everything is on the extended reals;
  a maximum starts from −∞ (the float word of −∞, never evaluated here) and a softmax is
  exp (x − max x) / ∑ exp (x − max x).
-/
import Idealize.ShloMosaic.PureOps.Ideal
import Idealize.ShloMosaic.Lib.ValueIdx

noncomputable section

open scoped BigOperators

namespace Cert.Pool

open Idealize.ShloMosaic

/-- The float word of −∞: what every maximum here starts from. -/
def negInf : EReal := Ideal.ofBits .f32 0xFF800000#32

/-- The maximum of finitely many extended reals, started from −∞. -/
def fmax {n : ℕ} (f : Fin n → EReal) : EReal := (Finset.univ : Finset (Fin n)).fold max negInf f

/-- Starting the maximum from −∞ a second time changes nothing: the maximum is already at least −∞. -/
theorem max_negInf_fmax {n : ℕ} (f : Fin n → EReal) : max negInf (fmax f) = fmax f :=
  max_eq_right ((Finset.le_fold_max negInf).2 (Or.inl le_rfl))

/-- The softmax weight of entry l of a vector x. -/
def softw {n : ℕ} (x : Fin n → EReal) (l : Fin n) : EReal :=
  Ideal.div (Ideal.exp (x l - fmax x)) (∑ l' : Fin n, Ideal.exp (x l' - fmax x))

variable {L M H : ℕ}

/-- The affinity of row l of d and row m of p. -/
def aff (d : Fin L → Fin H → EReal) (p : Fin M → Fin H → EReal) (l : Fin L) (m : Fin M) : EReal :=
  ∑ k : Fin H, d l k * p m k

/-- The affinity is symmetric in its two blocks: a product of two numbers does not depend on their order. -/
theorem aff_comm (d : Fin L → Fin H → EReal) (p : Fin M → Fin H → EReal) (l : Fin L) (m : Fin M) :
    (∑ k : Fin H, p m k * d l k) = aff d p l m :=
  Finset.sum_congr rfl fun k _ => mul_comm _ _

/-- The largest affinity of row l of d. -/
def rowMax (d : Fin L → Fin H → EReal) (p : Fin M → Fin H → EReal) (l : Fin L) : EReal := fmax fun m => aff d p l m

/-- The largest affinity of row m of p. -/
def colMax (d : Fin L → Fin H → EReal) (p : Fin M → Fin H → EReal) (m : Fin M) : EReal := fmax fun l => aff d p l m

/-- The rows of d added up with the softmax weights of their largest affinities. -/
def poolD (d : Fin L → Fin H → EReal) (p : Fin M → Fin H → EReal) (h : Fin H) : EReal :=
  ∑ l : Fin L, d l h * softw (rowMax d p) l

/-- Batch b of an array of B blocks of L rows of H numbers: its rows. -/
def batchRows {B : ℕ} (X : (⟨3, ![B, L, H]⟩ : Shape).Idx → EReal) (b : Fin B) : Fin L → Fin H → EReal :=
  fun l k => X (ValueIdx.ix3 b l k)

/-- The rows of p added up with the softmax weights of their largest affinities. -/
def poolP (d : Fin L → Fin H → EReal) (p : Fin M → Fin H → EReal) (h : Fin H) : EReal :=
  ∑ m : Fin M, p m h * softw (colMax d p) m

end Cert.Pool

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelOps.lean ====
/-
  THE KERNEL'S VECTOR OPERATIONS READ AT AN ENTRY.

  One maximum or sum along an axis of a matrix, read at an entry of the result; the softmax of a column of n numbers
  kept as an n-by-1 matrix (its maximum and its sum of exponentials are 1-by-1 matrices repeated down the rows); and
  the rows of an R-by-C matrix added up with one weight per row. Sizes are generic: the two halves of the kernel use
  them at different extents.
-/
import proofs.«153702_j91250875171209_2_alg».proof.Proof.Spec
import proofs.«153702_j91250875171209_2_alg».proof.Proof.LibColCast
import proofs.«153702_j91250875171209_2_alg».proof.Proof.LibColBroadcast
import Idealize.ShloMosaic.PureOps.Ideal.Laws
import Idealize.ShloMosaic.Lib.ValueLayout
import Idealize.ShloMosaic.Lib.Pipeline.Value

noncomputable section

open scoped BigOperators

namespace Cert.Pool

open Idealize.ShloMosaic Idealize.ShloMosaic.ValueIdx Cert.Lib

variable {R C : ℕ}

/-- Row l with the coordinate k put back on the second axis is the entry (l, k). -/
theorem lift_axis1 (h : (⟨2, ![R, C]⟩ : Shape).Reduces [1] ⟨1, ![R]⟩) (l : Fin R)
    (k : Fin ((⟨2, ![R, C]⟩ : Shape).size 1)) : h.lift (ix1 l) k = ix2 l (⟨k.val, k.isLt⟩ : Fin C) := by
  funext c; apply Fin.ext
  fin_cases c <;> rfl

/-- Column c with the coordinate k put back on the first axis is the entry (k, c). -/
theorem lift_axis0 (h : (⟨2, ![R, C]⟩ : Shape).Reduces [0] ⟨1, ![C]⟩) (c : Fin C)
    (k : Fin ((⟨2, ![R, C]⟩ : Shape).size 0)) : h.lift (ix1 c) k = ix2 (⟨k.val, k.isLt⟩ : Fin R) c := by
  funext a; apply Fin.ext
  fin_cases a <;> rfl

/-- The maximum along the rows: at l, the maximum over the columns m of the entry (l, m), from −∞. -/
theorem max_axis1_at (x : FVec Ideal ⟨2, ![R, C]⟩ .f32) (h : (⟨2, ![R, C]⟩ : Shape).Reduces [1] ⟨1, ![R]⟩)
    (hφ : FKind.Formats .f32) (hacc : (0xFF800000#32 : BitVec (FTy.bits .f32)) = FKind.maximumf.neutral .f32 hφ) (l : Fin R) :
    multiReduction .maximumf [1] ⟨1, ![R]⟩ x 0xFF800000#32 h hφ hacc (ix1 l) = fmax fun m : Fin C => x (ix2 l m) := by
  refine (Ideal.multiReduction_maximumf_single x _ h hφ hacc (ix1 l)).trans ?_
  have hf : (x ∘ h.lift (ix1 l)) = fun m : Fin C => x (ix2 l m) := funext fun m => congrArg x (lift_axis1 h l m)
  exact congrArg (fun f => Finset.fold max (Ideal.ofBits .f32 0xFF800000#32) f (Finset.univ : Finset (Fin C))) hf

/-- The maximum down the columns: at c, the maximum over the rows l of the entry (l, c), from −∞. -/
theorem max_axis0_at (x : FVec Ideal ⟨2, ![R, C]⟩ .f32) (h : (⟨2, ![R, C]⟩ : Shape).Reduces [0] ⟨1, ![C]⟩)
    (hφ : FKind.Formats .f32) (hacc : (0xFF800000#32 : BitVec (FTy.bits .f32)) = FKind.maximumf.neutral .f32 hφ) (c : Fin C) :
    multiReduction .maximumf [0] ⟨1, ![C]⟩ x 0xFF800000#32 h hφ hacc (ix1 c) = fmax fun l : Fin R => x (ix2 l c) := by
  refine (Ideal.multiReduction_maximumf_single x _ h hφ hacc (ix1 c)).trans ?_
  have hf : (x ∘ h.lift (ix1 c)) = fun l : Fin R => x (ix2 l c) := funext fun l => congrArg x (lift_axis0 h c l)
  exact congrArg (fun f => Finset.fold max (Ideal.ofBits .f32 0xFF800000#32) f (Finset.univ : Finset (Fin R))) hf

/-- The sum down the columns: at c, the sum over the rows l of the entry (l, c). -/
theorem add_axis0_at (x : FVec Ideal ⟨2, ![R, C]⟩ .f32) (h : (⟨2, ![R, C]⟩ : Shape).Reduces [0] ⟨1, ![C]⟩)
    (hφ : FKind.Formats .f32) (hacc : (0x00000000#32 : BitVec (FTy.bits .f32)) = FKind.add.neutral .f32 hφ) (c : Fin C) :
    multiReduction .add [0] ⟨1, ![C]⟩ x 0x00000000#32 h hφ hacc (ix1 c) = ∑ l : Fin R, x (ix2 l c) := by
  refine (Ideal.multiReduction_add_single x _ h hφ hacc (ix1 c)).trans ?_
  exact Finset.sum_congr rfl fun l _ => congrArg x (lift_axis0 h c l)

/-- The rows of x added up with one weight per row (the weights an R-by-1 matrix repeated across the columns): at c,
    the sum over l of x (l, c) · w (l, 0). -/
theorem weightedSum_at (x : FVec Ideal ⟨2, ![R, C]⟩ .f32) (w : FVec Ideal ⟨2, ![R, 1]⟩ .f32)
    (hb : (⟨2, ![R, 1]⟩ : Shape).Broadcasts ⟨2, ![R, C]⟩) (h : (⟨2, ![R, C]⟩ : Shape).Reduces [0] ⟨1, ![C]⟩)
    (hφ : FKind.Formats .f32) (hacc : (0x00000000#32 : BitVec (FTy.bits .f32)) = FKind.add.neutral .f32 hφ) (c : Fin C) :
    multiReduction .add [0] ⟨1, ![C]⟩ (mulf x (broadcastTo ⟨2, ![R, C]⟩ w hb)) 0x00000000#32 h hφ hacc (ix1 c)
      = ∑ l : Fin R, x (ix2 l c) * w (ix2 l (0 : Fin 1)) :=
  (add_axis0_at _ h hφ hacc c).trans
    (Finset.sum_congr rfl fun l _ => congrArg (x (ix2 l c) * ·) (broadcastTo_a1_ab_apply w hb l c))

/-- The softmax of a column r of n numbers: the maximum and the sum of exponentials are taken down the one column, kept
    as 1-by-1 matrices and repeated down the n rows; at row l the result is the softmax weight of entry l. -/
theorem colSoftmax_at {n : ℕ} (r : FVec Ideal ⟨2, ![n, 1]⟩ .f32)
    (h1 : (⟨2, ![n, 1]⟩ : Shape).Reduces [0] ⟨1, ![1]⟩) (hc : (⟨1, ![1]⟩ : Shape).ShapeCasts ⟨2, ![1, 1]⟩)
    (hb : (⟨2, ![1, 1]⟩ : Shape).Broadcasts ⟨2, ![n, 1]⟩)
    (hφ : FKind.Formats .f32) (hm : (0xFF800000#32 : BitVec (FTy.bits .f32)) = FKind.maximumf.neutral .f32 hφ)
    (hφ' : FKind.Formats .f32) (ha : (0x00000000#32 : BitVec (FTy.bits .f32)) = FKind.add.neutral .f32 hφ') (l : Fin n) :
    divf (exp (subf r (broadcastTo ⟨2, ![n, 1]⟩ (shapeCast ⟨2, ![1, 1]⟩ (multiReduction .maximumf [0] ⟨1, ![1]⟩ r 0xFF800000#32 h1 hφ hm) hc) hb)))
      (broadcastTo ⟨2, ![n, 1]⟩ (shapeCast ⟨2, ![1, 1]⟩ (multiReduction .add [0] ⟨1, ![1]⟩
        (exp (subf r (broadcastTo ⟨2, ![n, 1]⟩ (shapeCast ⟨2, ![1, 1]⟩ (multiReduction .maximumf [0] ⟨1, ![1]⟩ r 0xFF800000#32 h1 hφ hm) hc) hb)))
        0x00000000#32 h1 hφ' ha) hc) hb) (ix2 l (0 : Fin 1))
      = softw (fun l' => r (ix2 l' (0 : Fin 1))) l := by
  have hmx : ∀ l' : Fin n, (broadcastTo ⟨2, ![n, 1]⟩ (shapeCast ⟨2, ![1, 1]⟩ (multiReduction .maximumf [0] ⟨1, ![1]⟩ r 0xFF800000#32 h1 hφ hm) hc) hb) (ix2 l' (0 : Fin 1))
      = fmax fun l'' : Fin n => r (ix2 l'' (0 : Fin 1)) := fun l' =>
    (broadcastTo_1b_ab_apply _ hb l' (0 : Fin 1)).trans
      ((shapeCast_a_1a_apply _ hc (0 : Fin 1) (0 : Fin 1)).trans (max_axis0_at r h1 hφ hm (0 : Fin 1)))
  have he : ∀ l' : Fin n, (exp (subf r (broadcastTo ⟨2, ![n, 1]⟩ (shapeCast ⟨2, ![1, 1]⟩ (multiReduction .maximumf [0] ⟨1, ![1]⟩ r 0xFF800000#32 h1 hφ hm) hc) hb))) (ix2 l' (0 : Fin 1))
      = Ideal.exp (r (ix2 l' (0 : Fin 1)) - fmax fun l'' : Fin n => r (ix2 l'' (0 : Fin 1))) := fun l' =>
    congrArg (fun z => Ideal.exp (r (ix2 l' (0 : Fin 1)) - z)) (hmx l')
  unfold softw
  refine congrArg₂ Ideal.div (he l) ?_
  refine (broadcastTo_1b_ab_apply _ hb l (0 : Fin 1)).trans ((shapeCast_a_1a_apply _ hc (0 : Fin 1) (0 : Fin 1)).trans
    ((add_axis0_at _ h1 hφ' ha (0 : Fin 1)).trans ?_))
  exact Finset.sum_congr rfl fun l' _ => he l'

end Cert.Pool

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibTransMatmul.lean ====
/-
  A KERNEL'S MATRIX PRODUCT WITH THE WEIGHT'S LAST AXIS CONTRACTED (x · Wᵀ), AND A DENSE LAYER OVER IT, AT AN ENTRY.

  A matrix product of an [M, K] block with an [N, K] block that contracts the last axis of both, accumulated into the
  zero block, has at (r, q) the sum over k of the left block's (r, k) times the right block's (q, k). A dense layer adds to
  it a bias row [1, N] repeated down the M rows: at (r, q) that adds the bias row's entry q.
-/
import proofs.«153702_j91250875171209_2_alg».proof.Proof.LibTransDot
import Idealize.ShloMosaic.Lib.ValueLayout

noncomputable section

open scoped BigOperators

namespace Cert.Lib

open Idealize.ShloMosaic Idealize.ShloMosaic.ValueIdx

variable {M K N : Nat} (d : DotDims ⟨2, ![M, K]⟩ ⟨2, ![N, K]⟩ ⟨2, ![M, N]⟩)

/-- x · Wᵀ into the zero block at (r, q): the sum over k of x (r, k) · W (q, k). -/
theorem matmul_t2_zero_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    matmul d prec a b (constant (F := Ideal) ⟨2, ![M, N]⟩ .f32 0x00000000#32) (ix2 r q) = ∑ k : Fin K, a (ix2 r k) * b (ix2 q k) :=
  (Ideal.matmul_constant_zero_apply d prec a b (ix2 r q)).trans
    (sum_contr_t2 d hl hr hln hrn hlb hrb (fun i j => a i * b j) r q)

/-- A dense layer x · Wᵀ + b at (r, q): the contraction sum plus the bias row's entry q. -/
theorem dense_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (bias : FVec Ideal ⟨2, ![1, N]⟩ .f32) (hb : (⟨2, ![1, N]⟩ : Shape).Broadcasts ⟨2, ![M, N]⟩) (r : Fin M) (q : Fin N) :
    addf (matmul d prec a b (constant (F := Ideal) ⟨2, ![M, N]⟩ .f32 0x00000000#32)) (broadcastTo ⟨2, ![M, N]⟩ bias hb) (ix2 r q)
      = (∑ k : Fin K, a (ix2 r k) * b (ix2 q k)) + bias (ix2 (0 : Fin 1) q) :=
  congrArg₂ (· + ·) (matmul_t2_zero_at d hl hr hln hrn hlb hrb prec a b r q) (broadcastTo_1b_ab_apply bias hb r q)

end Cert.Lib

end
-- ==== Proof.Payload.lean ====
/-
  WHAT THE KERNEL BODY STORES, AT AN ENTRY.

  At one grid point the body loads a block v0 of 512 rows and a block v2 of 4096 rows, 128 numbers a row (each behind a
  leading axis of length one). It stores two rows of 128 numbers. Entry h of the first is the pooled vector of v0's
  rows: the affinity is a matrix product contracting the last axis of both blocks, its row maxima are softmaxed down
  the column and weight the rows. Entry h of the second is the pooled vector of v2's rows; the kernel computes the
  affinity a second time with the blocks in the other order, which is the same numbers transposed because a product
  of two numbers does not depend on their order. A change of float format is the identity here.
-/
import proofs.«153702_j91250875171209_2_alg».proof.Proof.Gen.KernelIdeal.Skeleton
import proofs.«153702_j91250875171209_2_alg».proof.Proof.KernelOps
import proofs.«153702_j91250875171209_2_alg».proof.Proof.LibTransMatmul

noncomputable section

open scoped BigOperators

namespace Cert.KernelIdeal.PoolValue

open Idealize.ShloMosaic Idealize.ShloMosaic.ValueIdx Cert.KernelIdeal Cert.KernelIdeal.Gen Cert.Pool Cert.Lib

/-- The rows of a loaded block of 512 rows. -/
abbrev rowsD (v0 : Vec Ideal S1x512x128 .bf16) : Fin 512 → Fin 128 → EReal := fun l k => v0 (ix3 (0 : Fin 1) l k)
/-- The rows of a loaded block of 4096 rows. -/
abbrev rowsP (v2 : Vec Ideal S1x4096x128 .bf16) : Fin 4096 → Fin 128 → EReal := fun m k => v2 (ix3 (0 : Fin 1) m k)

/-- The first stored row, at entry h: the pooled vector of the 512-row block. -/
theorem storedD_at (v0 : Vec Ideal S1x512x128 .bf16) (v2 : Vec Ideal S1x4096x128 .bf16) (h : Fin 128) :
    k0_pay4 (F := Ideal) v0 v2 (ix3 (0 : Fin 1) (0 : Fin 1) h) = poolD (rowsD v0) (rowsP v2) h := by
  unfold k0_pay4 k0_pay2 k0_pay3
  refine (shapeCast_ab_1ab_apply _ shapeCasts_S1x128_S1x1x128 (0 : Fin 1) (0 : Fin 1) h).trans ?_
  refine (shapeCast_a_1a_apply _ shapeCasts_S128_S1x128 (0 : Fin 1) h).trans ?_
  refine (weightedSum_at _ _ broadcasts_S512x1_S512x128 reduces_S512x128_S128 _ _ h).trans ?_
  unfold poolD
  refine Finset.sum_congr rfl fun l _ => ?_
  refine congrArg₂ (· * ·) (shapeCast_1ab_ab_apply v0 shapeCasts_S1x512x128_S512x128 l h) ?_
  refine (colSoftmax_at _ reduces_S512x1_S1 shapeCasts_S1_S1x1 broadcasts_S1x1_S512x1 _ _ _ _ l).trans ?_
  refine congrArg (fun x => softw x l) (funext fun l' => ?_)
  refine (shapeCast_a_a1_apply _ shapeCasts_S512_S512x1 l' (0 : Fin 1)).trans ?_
  refine (max_axis1_at _ reduces_S512x4096_S512 _ _ l').trans ?_
  unfold rowMax
  refine congrArg fmax (funext fun m => ?_)
  refine (matmul_t2_zero_at dot_S512x128_S4096x128_S512x4096_1_1_0_0_n_n rfl rfl rfl rfl rfl rfl none _ _ l' m).trans ?_
  unfold aff
  exact Finset.sum_congr rfl fun k _ => congrArg₂ (· * ·)
    (shapeCast_1ab_ab_apply v0 shapeCasts_S1x512x128_S512x128 l' k)
    (shapeCast_1ab_ab_apply v2 shapeCasts_S1x4096x128_S4096x128 m k)

/-- The second stored row, at entry h: the pooled vector of the 4096-row block. -/
theorem storedP_at (v0 : Vec Ideal S1x512x128 .bf16) (v2 : Vec Ideal S1x4096x128 .bf16) (h : Fin 128) :
    k0_pay1 (F := Ideal) (k0_pay5 v0 v2) (ix3 (0 : Fin 1) (0 : Fin 1) h) = poolP (rowsD v0) (rowsP v2) h := by
  unfold k0_pay1 k0_pay5 k0_pay2 k0_pay3
  refine (shapeCast_ab_1ab_apply _ shapeCasts_S1x128_S1x1x128 (0 : Fin 1) (0 : Fin 1) h).trans ?_
  refine (shapeCast_a_1a_apply _ shapeCasts_S128_S1x128 (0 : Fin 1) h).trans ?_
  refine (weightedSum_at _ _ broadcasts_S4096x1_S4096x128 reduces_S4096x128_S128 _ _ h).trans ?_
  unfold poolP
  refine Finset.sum_congr rfl fun m _ => ?_
  refine congrArg₂ (· * ·) (shapeCast_1ab_ab_apply v2 shapeCasts_S1x4096x128_S4096x128 m h) ?_
  refine (colSoftmax_at _ reduces_S4096x1_S1 shapeCasts_S1_S1x1 broadcasts_S1x1_S4096x1 _ _ _ _ m).trans ?_
  refine congrArg (fun x => softw x m) (funext fun m' => ?_)
  refine (shapeCast_a_a1_apply _ shapeCasts_S4096_S4096x1 m' (0 : Fin 1)).trans ?_
  refine (max_axis1_at _ reduces_S4096x512_S4096 _ _ m').trans ?_
  unfold colMax
  refine congrArg fmax (funext fun l => ?_)
  refine (matmul_t2_zero_at dot_S4096x128_S512x128_S4096x512_1_1_0_0_n_n rfl rfl rfl rfl rfl rfl none _ _ m' l).trans ?_
  refine Eq.trans ?_ (aff_comm (rowsD v0) (rowsP v2) l m')
  exact Finset.sum_congr rfl fun k _ => congrArg₂ (· * ·)
    (shapeCast_1ab_ab_apply v2 shapeCasts_S1x4096x128_S4096x128 m' k)
    (shapeCast_1ab_ab_apply v0 shapeCasts_S1x512x128_S512x128 l k)

end Cert.KernelIdeal.PoolValue

end
-- ==== Proof.KernelArrays.lean ====
/-
  THE KERNEL'S TWO RESULT ARRAYS AFTER THE REGION.

  Before the region the host gathers the rows of the two embedding tables at the (wrapped) ids into two arrays, 32 batches
  of 512 rows and 32 batches of 4096 rows, 128 numbers a row; the change to a shorter float format that follows is the
  identity here. The grid has one point per batch: point t is handed block t of each gathered array (all rows of batch t)
  and writes back row t of each of the two result arrays [32, 1, 128]. The body's stored rows are the pooled vectors of
  the two blocks, so each result array is one function of the two gathered arrays: at (b, 0, h), entry h of the pooled
  vector of batch b's blocks. The 32 blocks of a result array cover it, one per batch.
-/
import proofs.«153702_j91250875171209_2_alg».proof.Proof.Gen.KernelIdeal.Frame
import proofs.«153702_j91250875171209_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.PoolValue

open Idealize.ShloMosaic.ValueIdx Cert.KernelIdeal Cert.KernelIdeal.Gen Cert.Pool

/-- The rows of the first table gathered at the ids x0 (a negative id counted from the end). -/
def gD (x0 : (⟨S32x512, .i32⟩ : BufTy).Contents (Elt Ideal)) (x2 : (⟨S600x128, .f32⟩ : BufTy).Contents (Elt Ideal)) :
    (⟨S32x512x128, .f32⟩ : BufTy).Contents (Elt Ideal) :=
  Host.gather gather_S600x128_S32x512x1_S32x512x128_2_0_n_n_0_2_1128 x2 (broadcastInDim S32x512x1 ![0, 1] bcast_S32x512_S32x512x1_0_1 (select (cmpi .slt x0 (broadcastInDim S32x512 ![] bcast_S_S32x512 (constantI S_ 32 0#32))) (addi x0 (broadcastInDim S32x512 ![] bcast_S_S32x512 (constantI S_ 32 600#32))) x0))

/-- The rows of the second table gathered at the ids x1 (a negative id counted from the end). -/
def gP (x1 : (⟨S32x4096, .i32⟩ : BufTy).Contents (Elt Ideal)) (x3 : (⟨S26x128, .f32⟩ : BufTy).Contents (Elt Ideal)) :
    (⟨S32x4096x128, .f32⟩ : BufTy).Contents (Elt Ideal) :=
  Host.gather gather_S26x128_S32x4096x1_S32x4096x128_2_0_n_n_0_2_1128 x3 (broadcastInDim S32x4096x1 ![0, 1] bcast_S32x4096_S32x4096x1_0_1 (select (cmpi .slt x1 (broadcastInDim S32x4096 ![] bcast_S_S32x4096 (constantI S_ 32 0#32))) (addi x1 (broadcastInDim S32x4096 ![] bcast_S_S32x4096 (constantI S_ 32 26#32))) x1))

variable (m : (ℓ : Loc nD τ sig) → Buf (Elt Ideal) ℓ)

/-! ## The two gathered arrays as the region finds them -/

theorem hostD (c : Dev nD) : (V m c main_v7 : S32x512x128.Idx → EReal) = gD (m ((c.tc : Thread nD τ).loc main_arg0)) (m ((c.tc : Thread nD τ).loc main_arg2)) := by
  show StableHlo.after hostOps0 (fun b => m (c, b)) (Proc.devRef .tc main_v7) = _
  after_results
  rfl

theorem hostP (c : Dev nD) : (V m c main_v15 : S32x4096x128.Idx → EReal) = gP (m ((c.tc : Thread nD τ).loc main_arg1)) (m ((c.tc : Thread nD τ).loc main_arg3)) := by
  show StableHlo.after hostOps0 (fun b => m (c, b)) (Proc.devRef .tc main_v15) = _
  after_results
  rfl

/-! ## The windows' blocks -/

theorem hz : (![0, 0, 0] : Fin 3 → Nat) = fun _ => 0 := funext fun a => by fin_cases a <;> rfl

/-- The printed index maps, decided over the grid: at point t every window's block is block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The first input window's block at point t is batch t of the first gathered array. -/
theorem iblkD_apply (c : Dev nD) (t : Fin cfg0.N) (x : S1x512x128.Idx) (k : S32x512x128.Idx)
    (hk0 : (k 0).val = t.val) (hk1 : (k 1).val = (x 1).val) (hk2 : (k 2).val = (x 2).val) :
    (iblk m c 0 t : Vec Ideal S1x512x128 .bf16) x = (V m c main_v7 : S32x512x128.Idx → EReal) k := by
  obtain ⟨a0, a1, a2, -, -, -, -, -, -, -, -, -⟩ := idx_facts t
  have hx0 : (x 0).val < 1 := (x 0).isLt
  unfold iblk
  rw [View.read_apply]
  show V m c main_v7 _ = V m c main_v7 _
  congr 1
  funext a; apply Fin.ext
  match a with
  | ⟨0, _⟩ => show win0_0.index t (0 : Fin 3) * 1 + 1 * (x 0).val = (k 0).val; rw [a0, hk0]; omega
  | ⟨1, _⟩ => show win0_0.index t (1 : Fin 3) * 512 + 1 * (x 1).val = (k 1).val; rw [a1, hk1]; omega
  | ⟨2, _⟩ => show win0_0.index t (2 : Fin 3) * 128 + 1 * (x 2).val = (k 2).val; rw [a2, hk2]; omega

/-- The second input window's block at point t is batch t of the second gathered array. -/
theorem iblkP_apply (c : Dev nD) (t : Fin cfg0.N) (x : S1x4096x128.Idx) (k : S32x4096x128.Idx)
    (hk0 : (k 0).val = t.val) (hk1 : (k 1).val = (x 1).val) (hk2 : (k 2).val = (x 2).val) :
    (iblk m c 1 t : Vec Ideal S1x4096x128 .bf16) x = (V m c main_v15 : S32x4096x128.Idx → EReal) k := by
  obtain ⟨-, -, -, b0, b1, b2, -, -, -, -, -, -⟩ := idx_facts t
  have hx0 : (x 0).val < 1 := (x 0).isLt
  unfold iblk
  rw [View.read_apply]
  show V m c main_v15 _ = V m c main_v15 _
  congr 1
  funext a; apply Fin.ext
  match a with
  | ⟨0, _⟩ => show win0_1.index t (0 : Fin 3) * 1 + 1 * (x 0).val = (k 0).val; rw [b0, hk0]; omega
  | ⟨1, _⟩ => show win0_1.index t (1 : Fin 3) * 4096 + 1 * (x 1).val = (k 1).val; rw [b1, hk1]; omega
  | ⟨2, _⟩ => show win0_1.index t (2 : Fin 3) * 128 + 1 * (x 2).val = (k 2).val; rw [b2, hk2]; omega

theorem rowsD_iblk (c : Dev nD) (t : Fin cfg0.N) (ht : t.val < 32) :
    rowsD (iblk m c 0 t) = batchRows (B := 32) (L := 512) (H := 128) (V m c main_v7) ⟨t.val, ht⟩ :=
  funext fun l => funext fun k => iblkD_apply m c t (ix3 (0 : Fin 1) l k) (ix3 (⟨t.val, ht⟩ : Fin 32) l k) rfl rfl rfl

theorem rowsP_iblk (c : Dev nD) (t : Fin cfg0.N) (ht : t.val < 32) :
    rowsP (iblk m c 1 t) = batchRows (B := 32) (L := 4096) (H := 128) (V m c main_v15) ⟨t.val, ht⟩ :=
  funext fun l => funext fun k => iblkP_apply m c t (ix3 (0 : Fin 1) l k) (ix3 (⟨t.val, ht⟩ : Fin 32) l k) rfl rfl rfl

/-! ## The result arrays as functions of the gathered arrays -/

/-- The first result array: at (b, 0, h), entry h of the pooled vector of batch b's 512-row block. -/
def GD (Dk : S32x512x128.Idx → EReal) (Pk : S32x4096x128.Idx → EReal) : S32x1x128.Idx → EReal := fun i =>
  poolD (batchRows (B := 32) (L := 512) (H := 128) Dk ⟨(i 0).val, (i 0).isLt⟩) (batchRows (B := 32) (L := 4096) (H := 128) Pk ⟨(i 0).val, (i 0).isLt⟩) ⟨(i 2).val, (i 2).isLt⟩

/-- The second result array: at (b, 0, h), entry h of the pooled vector of batch b's 4096-row block. -/
def GP (Dk : S32x512x128.Idx → EReal) (Pk : S32x4096x128.Idx → EReal) : S32x1x128.Idx → EReal := fun i =>
  poolP (batchRows (B := 32) (L := 512) (H := 128) Dk ⟨(i 0).val, (i 0).isLt⟩) (batchRows (B := 32) (L := 4096) (H := 128) Pk ⟨(i 0).val, (i 0).isLt⟩) ⟨(i 2).val, (i 2).isLt⟩

/-- WHAT POINT t WRITES BACK to the first result array is block t of `GD` of the two gathered arrays. -/
theorem flushedD_eq (c : Dev nD) (t : Fin cfg0.N) :
    (dats m 0 c).flushed 2 t = ((cfg0.win 2).blk t).view.read (Elt Ideal) (GD (V m c main_v7) (V m c main_v15)) := by
  show (cfg0.win 2).cut (grid0.coords t) ((dats m 0 c).after 2 t) = _
  rw [after0_2]
  unfold out0_2
  rw [View.canon_unit_zero hz]
  simp only [View.ld_unit_zero (S := S1x512x128) hz, View.ld_unit_zero (S := S1x4096x128) hz]
  funext j
  obtain ⟨u, v, h, rfl⟩ : ∃ (u : Fin 1) (v : Fin 1) (h : Fin 128), j = ix3 u v h := ⟨j 0, j 1, j 2, eq_ix3 j⟩
  obtain rfl : u = 0 := Subsingleton.elim _ _
  obtain rfl : v = 0 := Subsingleton.elim _ _
  refine (storedD_at (iblk m c 0 t) (iblk m c 1 t) h).trans ?_
  rw [View.read_apply]
  obtain ⟨-, -, -, -, -, -, c0, c1, c2, d0, d1, d2⟩ := idx_facts t
  have ht : t.val < 32 := lt_of_lt_of_eq t.isLt N_0
  have e : ((cfg0.win 2).blk t).view.emb (ix3 (0 : Fin 1) (0 : Fin 1) h) = (ix3 (⟨t.val, ht⟩ : Fin 32) (0 : Fin 1) h : S32x1x128.Idx) := by
    funext a; apply Fin.ext
    match a with
    | ⟨0, _⟩ => show win0_2.index t (0 : Fin 3) * 1 + 1 * 0 = t.val; rw [c0]; omega
    | ⟨1, _⟩ => show win0_2.index t (1 : Fin 3) * 1 + 1 * 0 = 0; rw [c1]
    | ⟨2, _⟩ => show win0_2.index t (2 : Fin 3) * 128 + 1 * h.val = h.val; rw [c2]; omega
  rw [e]
  show poolD (rowsD (iblk m c 0 t)) (rowsP (iblk m c 1 t)) h
    = poolD (batchRows (B := 32) (L := 512) (H := 128) (V m c main_v7) ⟨t.val, ht⟩) (batchRows (B := 32) (L := 4096) (H := 128) (V m c main_v15) ⟨t.val, ht⟩) h
  rw [rowsD_iblk m c t ht, rowsP_iblk m c t ht]

/-- An index of the first result array is in point t's block iff each coordinate is in the block's range. -/
theorem mem_blkD (t : Fin cfg0.N) (i : S32x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v16_0).slice (win0_2.rect t)).set ↔ _
  rw [View.set_slice_whole, Rect.mem_set_unit]
  exact Iff.rfl

/-- Every index of the first result array is in the block of the point of its batch. -/
theorem coverD (i : S32x1x128.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 128 := (i 2).isLt
  obtain ⟨t, ht⟩ : ∃ t : Fin cfg0.N, t.val = (i 0).val := ⟨⟨(i 0).val, lt_of_lt_of_eq h0 N_0.symm⟩, rfl⟩
  obtain ⟨-, -, -, -, -, -, c0, c1, c2, d0, d1, d2⟩ := idx_facts t
  refine ⟨t, flush0_2 t, ?_⟩
  rw [mem_blkD]
  intro a
  match a with
  | ⟨0, _⟩ => show win0_2.index t (0 : Fin 3) * 1 ≤ (i 0).val ∧ (i 0).val < win0_2.index t (0 : Fin 3) * 1 + 1; rw [c0]; omega
  | ⟨1, _⟩ => show win0_2.index t (1 : Fin 3) * 1 ≤ (i 1).val ∧ (i 1).val < win0_2.index t (1 : Fin 3) * 1 + 1; rw [c1]; omega
  | ⟨2, _⟩ => show win0_2.index t (2 : Fin 3) * 128 ≤ (i 2).val ∧ (i 2).val < win0_2.index t (2 : Fin 3) * 128 + 128; rw [c2]; omega

/-- THE FIRST RESULT ARRAY after the region: at (b, 0, h) the pooled vector of batch b's 512-row block, entry h. -/
theorem finalD (c : Dev nD) : (dats m 0 c).arrAt 2 cfg0.N = GD (V m c main_v7) (V m c main_v15) :=
  (dats m 0 c).arrAt_eq_of_cover 2 (GD (V m c main_v7) (V m c main_v15)) (fun t _ => flushedD_eq m c t) coverD

/-- WHAT POINT t WRITES BACK to the second result array is block t of `GP` of the two gathered arrays. -/
theorem flushedP_eq (c : Dev nD) (t : Fin cfg0.N) :
    (dats m 0 c).flushed 3 t = ((cfg0.win 3).blk t).view.read (Elt Ideal) (GP (V m c main_v7) (V m c main_v15)) := by
  show (cfg0.win 3).cut (grid0.coords t) ((dats m 0 c).after 3 t) = _
  rw [after0_3]
  unfold out0_3
  rw [View.canon_unit_zero hz]
  simp only [View.ld_unit_zero (S := S1x512x128) hz, View.ld_unit_zero (S := S1x4096x128) hz]
  funext j
  obtain ⟨u, v, h, rfl⟩ : ∃ (u : Fin 1) (v : Fin 1) (h : Fin 128), j = ix3 u v h := ⟨j 0, j 1, j 2, eq_ix3 j⟩
  obtain rfl : u = 0 := Subsingleton.elim _ _
  obtain rfl : v = 0 := Subsingleton.elim _ _
  refine (storedP_at (iblk m c 0 t) (iblk m c 1 t) h).trans ?_
  rw [View.read_apply]
  obtain ⟨-, -, -, -, -, -, c0, c1, c2, d0, d1, d2⟩ := idx_facts t
  have ht : t.val < 32 := lt_of_lt_of_eq t.isLt N_0
  have e : ((cfg0.win 3).blk t).view.emb (ix3 (0 : Fin 1) (0 : Fin 1) h) = (ix3 (⟨t.val, ht⟩ : Fin 32) (0 : Fin 1) h : S32x1x128.Idx) := by
    funext a; apply Fin.ext
    match a with
    | ⟨0, _⟩ => show win0_3.index t (0 : Fin 3) * 1 + 1 * 0 = t.val; rw [d0]; omega
    | ⟨1, _⟩ => show win0_3.index t (1 : Fin 3) * 1 + 1 * 0 = 0; rw [d1]
    | ⟨2, _⟩ => show win0_3.index t (2 : Fin 3) * 128 + 1 * h.val = h.val; rw [d2]; omega
  rw [e]
  show poolP (rowsD (iblk m c 0 t)) (rowsP (iblk m c 1 t)) h
    = poolP (batchRows (B := 32) (L := 512) (H := 128) (V m c main_v7) ⟨t.val, ht⟩) (batchRows (B := 32) (L := 4096) (H := 128) (V m c main_v15) ⟨t.val, ht⟩) h
  rw [rowsD_iblk m c t ht, rowsP_iblk m c t ht]

/-- An index of the second result array is in point t's block iff each coordinate is in the block's range. -/
theorem mem_blkP (t : Fin cfg0.N) (i : S32x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v16_1).slice (win0_3.rect t)).set ↔ _
  rw [View.set_slice_whole, Rect.mem_set_unit]
  exact Iff.rfl

/-- Every index of the second result array is in the block of the point of its batch. -/
theorem coverP (i : S32x1x128.Idx) : ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 128 := (i 2).isLt
  obtain ⟨t, ht⟩ : ∃ t : Fin cfg0.N, t.val = (i 0).val := ⟨⟨(i 0).val, lt_of_lt_of_eq h0 N_0.symm⟩, rfl⟩
  obtain ⟨-, -, -, -, -, -, c0, c1, c2, d0, d1, d2⟩ := idx_facts t
  refine ⟨t, flush0_3 t, ?_⟩
  rw [mem_blkP]
  intro a
  match a with
  | ⟨0, _⟩ => show win0_3.index t (0 : Fin 3) * 1 ≤ (i 0).val ∧ (i 0).val < win0_3.index t (0 : Fin 3) * 1 + 1; rw [d0]; omega
  | ⟨1, _⟩ => show win0_3.index t (1 : Fin 3) * 1 ≤ (i 1).val ∧ (i 1).val < win0_3.index t (1 : Fin 3) * 1 + 1; rw [d1]; omega
  | ⟨2, _⟩ => show win0_3.index t (2 : Fin 3) * 128 ≤ (i 2).val ∧ (i 2).val < win0_3.index t (2 : Fin 3) * 128 + 128; rw [d2]; omega

/-- THE SECOND RESULT ARRAY after the region: at (b, 0, h) the pooled vector of batch b's 4096-row block, entry h. -/
theorem finalP (c : Dev nD) : (dats m 0 c).arrAt 3 cfg0.N = GP (V m c main_v7) (V m c main_v15) :=
  (dats m 0 c).arrAt_eq_of_cover 3 (GP (V m c main_v7) (V m c main_v15)) (fun t _ => flushedP_eq m c t) coverP

end Cert.KernelIdeal.PoolValue

end
-- ==== Proof.KernelRun.lean ====
/-
  THE KERNEL PROGRAM'S RUN, READ: THE CLASSIFIER OVER THE TWO RESULT ARRAYS.

  After the region the host drops the unit axis of each result array ([32, 1, 128] to [32, 128]), joins the two side by
  side and applies the classifier: a product with W1, a bias, a maximum with zero, a product with W2, a bias. The lines
  after the region start from the contents the region leaves: each result array at its function of the two gathered
  arrays, every other buffer as the region found it. So the program's result is the classifier of the two pooled arrays.
-/
import proofs.«153702_j91250875171209_2_alg».proof.Proof.KernelArrays
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.PoolValue

open Idealize.ShloMosaic.ValueIdx Cert.KernelIdeal Cert.KernelIdeal.Gen Cert.Pool

/-- The classifier over the two pooled arrays: joined side by side, times W1, plus b1, maximum with zero, times W2,
    plus b2. -/
def tailK (dv pv : FVec Ideal S32x128 .f32) (w1 : FVec Ideal S256x64 .f32) (b1 : FVec Ideal S64 .f32) (w2 : FVec Ideal S64x1 .f32)
    (b2 : FVec Ideal S1 .f32) : FVec Ideal S32x1 .f32 :=
  addf (Host.dotGeneral dot_S32x64_S64x1_S32x1_1_0_0_1_n_n none
      (maximumf
        (addf (Host.dotGeneral dot_S32x256_S256x64_S32x64_1_0_0_1_n_n none
            (concatenate S32x256 1 [⟨S32x128, dv⟩, ⟨S32x128, pv⟩] concatenates_S32x128_S32x128_S32x256_d1) w1)
          (broadcastInDim S32x64 ![0, 1] bcast_S1x64_S32x64_0_1 (broadcastInDim S1x64 ![1] bcast_S64_S1x64_1 b1)))
        (broadcastInDim S32x64 ![] bcast_S_S32x64 (constant (F := Ideal) S_ .f32 0x00000000#32))) w2)
    (broadcastInDim S32x1 ![0, 1] bcast_S1x1_S32x1_0_1 (broadcastInDim S1x1 ![1] bcast_S1_S1x1_1 b2))

/-- From any contents W the lines after the region leave, in the result buffer, the classifier of W's two result
    arrays with their unit axis dropped and W's four parameter buffers. -/
theorem tailK_of_after (W : Valuation τ sig (Elt Ideal)) :
    StableHlo.after (List.flatten [hostOps1, hostOps1_1, hostOps1_2]) W (Proc.devRef .tc main_v28)
      = tailK (shapeCast S32x128 (W (Proc.devRef .tc main_v16_0)) shapeCasts_S32x1x128_S32x128)
          (shapeCast S32x128 (W (Proc.devRef .tc main_v16_1)) shapeCasts_S32x1x128_S32x128)
          (W (Proc.devRef .tc main_arg4)) (W (Proc.devRef .tc main_arg5)) (W (Proc.devRef .tc main_arg6)) (W (Proc.devRef .tc main_arg7)) := by
  simp only [hostOps1, hostOps1_1, hostOps1_2, List.flatten_cons, List.flatten_nil, List.append_nil, List.cons_append, List.nil_append]
  after_results_simp <;> rfl

variable (m : (ℓ : Loc nD τ sig) → Buf (Elt Ideal) ℓ)

/-- The contents the lines after the region start from: the pipeline's arrays as the region leaves them, every other
    buffer as the region found it. -/
abbrev WA (c : Dev nD) : Valuation τ sig (Elt Ideal) :=
  Pipeline.withArrays (cfgs 0).spec c (V0 m c) fun w => (dats m 0 c).arrAt w (cfgs 0).N

theorem afterTail_eq (c : Dev nD) (b : Ref sig .tc) :
    Pipeline.afterTail₀ cfgs (dats m) 0 (V0 m) [hostOps1, hostOps1_1, hostOps1_2] c b
      = StableHlo.after (List.flatten [hostOps1, hostOps1_1, hostOps1_2]) (WA m c) (Proc.devRef .tc b) := rfl

/-- The first result array, as those lines find it. -/
theorem wa_D (c : Dev nD) : WA m c (Proc.devRef .tc main_v16_0)
    = GD (gD (m ((c.tc : Thread nD τ).loc main_arg0)) (m ((c.tc : Thread nD τ).loc main_arg2))) (gP (m ((c.tc : Thread nD τ).loc main_arg1)) (m ((c.tc : Thread nD τ).loc main_arg3))) :=
  (Pipeline.withArrays_arr (cfgs 0).spec launch0.win.arr_inj c _ _ (2 : Fin 4)).trans
    ((finalD m c).trans (by rw [hostD, hostP]))

/-- The second result array, as those lines find it. -/
theorem wa_P (c : Dev nD) : WA m c (Proc.devRef .tc main_v16_1)
    = GP (gD (m ((c.tc : Thread nD τ).loc main_arg0)) (m ((c.tc : Thread nD τ).loc main_arg2))) (gP (m ((c.tc : Thread nD τ).loc main_arg1)) (m ((c.tc : Thread nD τ).loc main_arg3))) :=
  (Pipeline.withArrays_arr (cfgs 0).spec launch0.win.arr_inj c _ _ (3 : Fin 4)).trans
    ((finalP m c).trans (by rw [hostD, hostP]))

theorem wa_arg4 (c : Dev nD) : WA m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem wa_arg5 (c : Dev nD) : WA m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)
theorem wa_arg6 (c : Dev nD) : WA m c (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)
theorem wa_arg7 (c : Dev nD) : WA m c (Proc.devRef .tc main_arg7) = m ((c.tc : Thread nD τ).loc main_arg7) :=
  (Pipeline.withArrays_of_ne _ c (V0 m c) _ main_arg7 (by exact (by decide : ∀ w, Pipeline.arrRef spec0 w ≠ main_arg7))).trans (V_main_arg7 m c)

/-- The program's result: the classifier of the two pooled arrays and the four parameter arrays. -/
def resK (c : Dev nD) : Buf (Elt Ideal) ((c.tc : Thread nD τ).loc main_v28) :=
  tailK
    (shapeCast S32x128 (GD (gD (m ((c.tc : Thread nD τ).loc main_arg0)) (m ((c.tc : Thread nD τ).loc main_arg2))) (gP (m ((c.tc : Thread nD τ).loc main_arg1)) (m ((c.tc : Thread nD τ).loc main_arg3)))) shapeCasts_S32x1x128_S32x128)
    (shapeCast S32x128 (GP (gD (m ((c.tc : Thread nD τ).loc main_arg0)) (m ((c.tc : Thread nD τ).loc main_arg2))) (gP (m ((c.tc : Thread nD τ).loc main_arg1)) (m ((c.tc : Thread nD τ).loc main_arg3)))) shapeCasts_S32x1x128_S32x128)
    (m ((c.tc : Thread nD τ).loc main_arg4)) (m ((c.tc : Thread nD τ).loc main_arg5)) (m ((c.tc : Thread nD τ).loc main_arg6)) (m ((c.tc : Thread nD τ).loc main_arg7))

theorem tail_at (c : Dev nD) :
    Pipeline.afterTail₀ cfgs (dats m) 0 (V0 m) [hostOps1, hostOps1_1, hostOps1_2] c main_v28 = resK m c := by
  rw [afterTail_eq, tailK_of_after, wa_D, wa_P, wa_arg4, wa_arg5, wa_arg6, wa_arg7]
  rfl

/-- Every weakly fair execution of the program terminates with the result at the classifier of the two pooled arrays and
    the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v28) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).2 main_v28 (Pipeline.mem_restRefs_of main_v28 (by decide) (by decide))).trans (tail_at m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.PoolValue

end
-- ==== Proof.LibAfter.lean ====
/-
  A LINE OF HOST OPERATIONS, CUT IN TWO.

  The contents a device's buffers hold after a straight line of host operations is a fold of the operations' results
  over the contents the line starts from. The fold over a concatenation is the fold over the second part, started from
  the fold over the first; so a long line can be read a stretch at a time, each stretch from contents that are a
  variable: what a stretch leaves in a buffer is then a small term over the few buffers the stretch reads.
-/
import Idealize.ShloMosaic.Lib.StableHlo.Run

noncomputable section

namespace Cert.Lib

open Idealize.ShloMosaic Idealize.ShloMosaic.StableHlo

variable {τ : Topo} {sig : RefSig} {Val : EltTy → Type}

/-- The fold over two lines one after the other is the second's fold from the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `k` operations: the rest's fold, from the first `k`'s. -/
theorem after_take_drop (l : List (HloOp τ sig Val)) (k : Nat) (V : Valuation τ sig Val) :
    after l V = after (l.drop k) (after (l.take k) V) := by
  rw [← after_append, List.take_append_drop]

end Cert.Lib

end
-- ==== Proof.RefRun.lean ====
/-
  THE REFERENCE'S RUN, READ BACK IN TWO STRETCHES.

  The reference is a straight line of 73 host operations. Its first 61 compute, from the argument arrays, the two pooled
  arrays (one row of 128 numbers per batch for each of the two feature blocks); its last 12 join the two arrays side by
  side and pass them through the classifier: a product with W1, a bias, a maximum with zero, a product with W2, a bias.
  What the line leaves in a buffer is a fold over the operations; the fold over the whole line is the fold over the last
  12 started from the fold over the first 61. So the result is the classifier applied to what the first stretch leaves
  in the two pooled buffers, and those are the stages the reading module names.
-/
import proofs.«153702_j91250875171209_2_alg».proof.Proof.RefRead
import proofs.«153702_j91250875171209_2_alg».proof.Proof.LibAfter

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The classifier over the two pooled arrays: joined side by side, times W1, plus b1, maximum with zero, times W2,
    plus b2. -/
def tail (dv pv : FVec F S32x128 .f32) (w1 : FVec F S256x64 .f32) (b1 : FVec F S64 .f32) (w2 : FVec F S64x1 .f32)
    (b2 : FVec F S1 .f32) : FVec F S32x1 .f32 :=
  addf (Host.dotGeneral dot_S32x64_S64x1_S32x1_1_0_0_1_n_n none
      (maximumf
        (addf (Host.dotGeneral dot_S32x256_S256x64_S32x64_1_0_0_1_n_n none
            (concatenate S32x256 1 [⟨S32x128, dv⟩, ⟨S32x128, pv⟩] concatenates_S32x128_S32x128_S32x256_d1) w1)
          (broadcastInDim S32x64 ![0, 1] bcast_S1x64_S32x64_0_1 (broadcastInDim S1x64 ![1] bcast_S64_S1x64_1 b1)))
        (broadcastInDim S32x64 ![] bcast_S_S32x64 (constant S_ .f32 0x00000000#32))) w2)
    (broadcastInDim S32x1 ![0, 1] bcast_S1x1_S32x1_0_1 (broadcastInDim S1x1 ![1] bcast_S1_S1x1_1 b2))

/-- @main's 73 operations, in order (the called function's three operations stand in its call's place). -/
abbrev ops : List (HloOp τ sig (Elt F)) :=
  [ nullary main_c (constantI S_ 32 0#32),
    unary main_c main_v0 (broadcastInDim S32x512 ![] bcast_S_S32x512 : (⟨S_, .i32⟩ : BufTy).Contents (Elt F) → (⟨S32x512, .i32⟩ : BufTy).Contents (Elt F)),
    binary main_arg0 main_v0 main_v1 (cmpi .slt : (⟨S32x512, .i32⟩ : BufTy).Contents (Elt F) → (⟨S32x512, .i32⟩ : BufTy).Contents (Elt F) → (⟨S32x512, .i1⟩ : BufTy).Contents (Elt F)),
    nullary main_c_0 (constantI S_ 32 600#32),
    unary main_c_0 main_v2 (broadcastInDim S32x512 ![] bcast_S_S32x512 : (⟨S_, .i32⟩ : BufTy).Contents (Elt F) → (⟨S32x512, .i32⟩ : BufTy).Contents (Elt F)),
    binary main_arg0 main_v2 main_v3 (addi : (⟨S32x512, .i32⟩ : BufTy).Contents (Elt F) → (⟨S32x512, .i32⟩ : BufTy).Contents (Elt F) → (⟨S32x512, .i32⟩ : BufTy).Contents (Elt F)),
    ternary main_v1 main_v3 main_arg0 main_v4 (select : (⟨S32x512, .i1⟩ : BufTy).Contents (Elt F) → (⟨S32x512, .i32⟩ : BufTy).Contents (Elt F) → (⟨S32x512, .i32⟩ : BufTy).Contents (Elt F) → (⟨S32x512, .i32⟩ : BufTy).Contents (Elt F)),
    unary main_v4 main_v5 (broadcastInDim S32x512x1 ![0, 1] bcast_S32x512_S32x512x1_0_1 : (⟨S32x512, .i32⟩ : BufTy).Contents (Elt F) → (⟨S32x512x1, .i32⟩ : BufTy).Contents (Elt F)),
    binary main_arg2 main_v5 main_v6 ((fun x i => Host.gather gather_S600x128_S32x512x1_S32x512x128_2_0_n_n_0_2_1128 x i) : (⟨S600x128, .f32⟩ : BufTy).Contents (Elt F) → (⟨S32x512x1, .i32⟩ : BufTy).Contents (Elt F) → (⟨S32x512x128, .f32⟩ : BufTy).Contents (Elt F)),
    nullary main_c_1 (constantI S_ 32 0#32),
    unary main_c_1 main_v7 (broadcastInDim S32x4096 ![] bcast_S_S32x4096 : (⟨S_, .i32⟩ : BufTy).Contents (Elt F) → (⟨S32x4096, .i32⟩ : BufTy).Contents (Elt F)),
    binary main_arg1 main_v7 main_v8 (cmpi .slt : (⟨S32x4096, .i32⟩ : BufTy).Contents (Elt F) → (⟨S32x4096, .i32⟩ : BufTy).Contents (Elt F) → (⟨S32x4096, .i1⟩ : BufTy).Contents (Elt F)),
    nullary main_c_2 (constantI S_ 32 26#32),
    unary main_c_2 main_v9 (broadcastInDim S32x4096 ![] bcast_S_S32x4096 : (⟨S_, .i32⟩ : BufTy).Contents (Elt F) → (⟨S32x4096, .i32⟩ : BufTy).Contents (Elt F)),
    binary main_arg1 main_v9 main_v10 (addi : (⟨S32x4096, .i32⟩ : BufTy).Contents (Elt F) → (⟨S32x4096, .i32⟩ : BufTy).Contents (Elt F) → (⟨S32x4096, .i32⟩ : BufTy).Contents (Elt F)),
    ternary main_v8 main_v10 main_arg1 main_v11 (select : (⟨S32x4096, .i1⟩ : BufTy).Contents (Elt F) → (⟨S32x4096, .i32⟩ : BufTy).Contents (Elt F) → (⟨S32x4096, .i32⟩ : BufTy).Contents (Elt F) → (⟨S32x4096, .i32⟩ : BufTy).Contents (Elt F)),
    unary main_v11 main_v12 (broadcastInDim S32x4096x1 ![0, 1] bcast_S32x4096_S32x4096x1_0_1 : (⟨S32x4096, .i32⟩ : BufTy).Contents (Elt F) → (⟨S32x4096x1, .i32⟩ : BufTy).Contents (Elt F)),
    binary main_arg3 main_v12 main_v13 ((fun x i => Host.gather gather_S26x128_S32x4096x1_S32x4096x128_2_0_n_n_0_2_1128 x i) : (⟨S26x128, .f32⟩ : BufTy).Contents (Elt F) → (⟨S32x4096x1, .i32⟩ : BufTy).Contents (Elt F) → (⟨S32x4096x128, .f32⟩ : BufTy).Contents (Elt F)),
    binary main_v6 main_v13 main_v14 ((fun l r => Host.dotGeneral dot_S32x512x128_S32x4096x128_S32x512x4096_2_2_1_1_0_0 none l r) : (⟨S32x512x128, .f32⟩ : BufTy).Contents (Elt F) → (⟨S32x4096x128, .f32⟩ : BufTy).Contents (Elt F) → (⟨S32x512x4096, .f32⟩ : BufTy).Contents (Elt F)),
    nullary main_cst (constant S_ .f32 0xFF800000#32),
    binary main_v14 main_cst main_v15 ((fun x v => Host.reduce FloatOps.maximumf x v reducesTo_S32x512x4096_S32x512_d2 h_S_) : (⟨S32x512x4096, .f32⟩ : BufTy).Contents (Elt F) → (⟨S_, .f32⟩ : BufTy).Contents (Elt F) → (⟨S32x512, .f32⟩ : BufTy).Contents (Elt F)),
    nullary main_cst_3 (constant S_ .f32 0xFF800000#32),
    binary main_v15 main_cst_3 main_v16 ((fun x v => Host.reduce FloatOps.maximumf x v reducesTo_S32x512_S32_d1 h_S_) : (⟨S32x512, .f32⟩ : BufTy).Contents (Elt F) → (⟨S_, .f32⟩ : BufTy).Contents (Elt F) → (⟨S32, .f32⟩ : BufTy).Contents (Elt F)),
    nullary main_cst_4 (constant S_ .f32 0xFF800000#32),
    unary main_cst_4 main_v17 (broadcastInDim S32 ![] bcast_S_S32 : (⟨S_, .f32⟩ : BufTy).Contents (Elt F) → (⟨S32, .f32⟩ : BufTy).Contents (Elt F)),
    binary main_v17 main_v16 main_v18 (maximumf : (⟨S32, .f32⟩ : BufTy).Contents (Elt F) → (⟨S32, .f32⟩ : BufTy).Contents (Elt F) → (⟨S32, .f32⟩ : BufTy).Contents (Elt F)),
    unary main_v18 main_v19 (broadcastInDim S32x1 ![0] bcast_S32_S32x1_0 : (⟨S32, .f32⟩ : BufTy).Contents (Elt F) → (⟨S32x1, .f32⟩ : BufTy).Contents (Elt F)),
    unary main_v19 main_v20 (broadcastInDim S32x512 ![0, 1] bcast_S32x1_S32x512_0_1 : (⟨S32x1, .f32⟩ : BufTy).Contents (Elt F) → (⟨S32x512, .f32⟩ : BufTy).Contents (Elt F)),
    binary main_v15 main_v20 main_v21 (subf : (⟨S32x512, .f32⟩ : BufTy).Contents (Elt F) → (⟨S32x512, .f32⟩ : BufTy).Contents (Elt F) → (⟨S32x512, .f32⟩ : BufTy).Contents (Elt F)),
    unary main_v21 main_v22 (Host.exp : (⟨S32x512, .f32⟩ : BufTy).Contents (Elt F) → (⟨S32x512, .f32⟩ : BufTy).Contents (Elt F)),
    nullary main_cst_5 (constant S_ .f32 0x00000000#32),
    binary main_v22 main_cst_5 main_v23 ((fun x v => Host.reduceAdd x v reducesTo_S32x512_S32_d1 h_S_) : (⟨S32x512, .f32⟩ : BufTy).Contents (Elt F) → (⟨S_, .f32⟩ : BufTy).Contents (Elt F) → (⟨S32, .f32⟩ : BufTy).Contents (Elt F)),
    unary main_v23 main_v24 (broadcastInDim S32x1 ![0] bcast_S32_S32x1_0 : (⟨S32, .f32⟩ : BufTy).Contents (Elt F) → (⟨S32x1, .f32⟩ : BufTy).Contents (Elt F)),
    unary main_v24 main_v25 (broadcastInDim S32x512 ![0, 1] bcast_S32x1_S32x512_0_1 : (⟨S32x1, .f32⟩ : BufTy).Contents (Elt F) → (⟨S32x512, .f32⟩ : BufTy).Contents (Elt F)),
    binary main_v22 main_v25 main_v26 (Host.divf : (⟨S32x512, .f32⟩ : BufTy).Contents (Elt F) → (⟨S32x512, .f32⟩ : BufTy).Contents (Elt F) → (⟨S32x512, .f32⟩ : BufTy).Contents (Elt F)),
    unary main_v26 main_v27 (broadcastInDim S32x512x1 ![0, 1] bcast_S32x512_S32x512x1_0_1 : (⟨S32x512, .f32⟩ : BufTy).Contents (Elt F) → (⟨S32x512x1, .f32⟩ : BufTy).Contents (Elt F)),
    nullary main_cst_6 (constant S_ .f32 0xFF800000#32),
    binary main_v14 main_cst_6 main_v28 ((fun x v => Host.reduce FloatOps.maximumf x v reducesTo_S32x512x4096_S32x4096_d1 h_S_) : (⟨S32x512x4096, .f32⟩ : BufTy).Contents (Elt F) → (⟨S_, .f32⟩ : BufTy).Contents (Elt F) → (⟨S32x4096, .f32⟩ : BufTy).Contents (Elt F)),
    nullary main_cst_7 (constant S_ .f32 0xFF800000#32),
    binary main_v28 main_cst_7 main_v29 ((fun x v => Host.reduce FloatOps.maximumf x v reducesTo_S32x4096_S32_d1 h_S_) : (⟨S32x4096, .f32⟩ : BufTy).Contents (Elt F) → (⟨S_, .f32⟩ : BufTy).Contents (Elt F) → (⟨S32, .f32⟩ : BufTy).Contents (Elt F)),
    nullary main_cst_8 (constant S_ .f32 0xFF800000#32),
    unary main_cst_8 main_v30 (broadcastInDim S32 ![] bcast_S_S32 : (⟨S_, .f32⟩ : BufTy).Contents (Elt F) → (⟨S32, .f32⟩ : BufTy).Contents (Elt F)),
    binary main_v30 main_v29 main_v31 (maximumf : (⟨S32, .f32⟩ : BufTy).Contents (Elt F) → (⟨S32, .f32⟩ : BufTy).Contents (Elt F) → (⟨S32, .f32⟩ : BufTy).Contents (Elt F)),
    unary main_v31 main_v32 (broadcastInDim S32x1 ![0] bcast_S32_S32x1_0 : (⟨S32, .f32⟩ : BufTy).Contents (Elt F) → (⟨S32x1, .f32⟩ : BufTy).Contents (Elt F)),
    unary main_v32 main_v33 (broadcastInDim S32x4096 ![0, 1] bcast_S32x1_S32x4096_0_1 : (⟨S32x1, .f32⟩ : BufTy).Contents (Elt F) → (⟨S32x4096, .f32⟩ : BufTy).Contents (Elt F)),
    binary main_v28 main_v33 main_v34 (subf : (⟨S32x4096, .f32⟩ : BufTy).Contents (Elt F) → (⟨S32x4096, .f32⟩ : BufTy).Contents (Elt F) → (⟨S32x4096, .f32⟩ : BufTy).Contents (Elt F)),
    unary main_v34 main_v35 (Host.exp : (⟨S32x4096, .f32⟩ : BufTy).Contents (Elt F) → (⟨S32x4096, .f32⟩ : BufTy).Contents (Elt F)),
    nullary main_cst_9 (constant S_ .f32 0x00000000#32),
    binary main_v35 main_cst_9 main_v36 ((fun x v => Host.reduceAdd x v reducesTo_S32x4096_S32_d1 h_S_) : (⟨S32x4096, .f32⟩ : BufTy).Contents (Elt F) → (⟨S_, .f32⟩ : BufTy).Contents (Elt F) → (⟨S32, .f32⟩ : BufTy).Contents (Elt F)),
    unary main_v36 main_v37 (broadcastInDim S32x1 ![0] bcast_S32_S32x1_0 : (⟨S32, .f32⟩ : BufTy).Contents (Elt F) → (⟨S32x1, .f32⟩ : BufTy).Contents (Elt F)),
    unary main_v37 main_v38 (broadcastInDim S32x4096 ![0, 1] bcast_S32x1_S32x4096_0_1 : (⟨S32x1, .f32⟩ : BufTy).Contents (Elt F) → (⟨S32x4096, .f32⟩ : BufTy).Contents (Elt F)),
    binary main_v35 main_v38 main_v39 (Host.divf : (⟨S32x4096, .f32⟩ : BufTy).Contents (Elt F) → (⟨S32x4096, .f32⟩ : BufTy).Contents (Elt F) → (⟨S32x4096, .f32⟩ : BufTy).Contents (Elt F)),
    unary main_v39 main_v40 (broadcastInDim S32x4096x1 ![0, 1] bcast_S32x4096_S32x4096x1_0_1 : (⟨S32x4096, .f32⟩ : BufTy).Contents (Elt F) → (⟨S32x4096x1, .f32⟩ : BufTy).Contents (Elt F)),
    unary main_v27 main_v41 (broadcastInDim S32x512x128 ![0, 1, 2] bcast_S32x512x1_S32x512x128_0_1_2 : (⟨S32x512x1, .f32⟩ : BufTy).Contents (Elt F) → (⟨S32x512x128, .f32⟩ : BufTy).Contents (Elt F)),
    binary main_v6 main_v41 main_v42 (mulf : (⟨S32x512x128, .f32⟩ : BufTy).Contents (Elt F) → (⟨S32x512x128, .f32⟩ : BufTy).Contents (Elt F) → (⟨S32x512x128, .f32⟩ : BufTy).Contents (Elt F)),
    nullary main_cst_10 (constant S_ .f32 0x00000000#32),
    binary main_v42 main_cst_10 main_v43 ((fun x v => Host.reduceAdd x v reducesTo_S32x512x128_S32x128_d1 h_S_) : (⟨S32x512x128, .f32⟩ : BufTy).Contents (Elt F) → (⟨S_, .f32⟩ : BufTy).Contents (Elt F) → (⟨S32x128, .f32⟩ : BufTy).Contents (Elt F)),
    unary main_v40 main_v44 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v13 main_v44 main_v45 (mulf : (⟨S32x4096x128, .f32⟩ : BufTy).Contents (Elt F) → (⟨S32x4096x128, .f32⟩ : BufTy).Contents (Elt F) → (⟨S32x4096x128, .f32⟩ : BufTy).Contents (Elt F)),
    nullary main_cst_11 (constant S_ .f32 0x00000000#32),
    binary main_v45 main_cst_11 main_v46 ((fun x v => Host.reduceAdd x v reducesTo_S32x4096x128_S32x128_d1 h_S_) : (⟨S32x4096x128, .f32⟩ : BufTy).Contents (Elt F) → (⟨S_, .f32⟩ : BufTy).Contents (Elt F) → (⟨S32x128, .f32⟩ : BufTy).Contents (Elt F)),
    binary main_v43 main_v46 main_v47 ((fun a b => concatenate S32x256 1 [⟨S32x128, a⟩, ⟨S32x128, b⟩] concatenates_S32x128_S32x128_S32x256_d1) : (⟨S32x128, .f32⟩ : BufTy).Contents (Elt F) → (⟨S32x128, .f32⟩ : BufTy).Contents (Elt F) → (⟨S32x256, .f32⟩ : BufTy).Contents (Elt F)),
    binary main_v47 main_arg4 main_v48 ((fun l r => Host.dotGeneral dot_S32x256_S256x64_S32x64_1_0_0_1_n_n none l r) : (⟨S32x256, .f32⟩ : BufTy).Contents (Elt F) → (⟨S256x64, .f32⟩ : BufTy).Contents (Elt F) → (⟨S32x64, .f32⟩ : BufTy).Contents (Elt F)),
    unary main_arg5 main_v49 (broadcastInDim S1x64 ![1] bcast_S64_S1x64_1 : (⟨S64, .f32⟩ : BufTy).Contents (Elt F) → (⟨S1x64, .f32⟩ : BufTy).Contents (Elt F)),
    unary main_v49 main_v50 (broadcastInDim S32x64 ![0, 1] bcast_S1x64_S32x64_0_1 : (⟨S1x64, .f32⟩ : BufTy).Contents (Elt F) → (⟨S32x64, .f32⟩ : BufTy).Contents (Elt F)),
    binary main_v48 main_v50 main_v51 (addf : (⟨S32x64, .f32⟩ : BufTy).Contents (Elt F) → (⟨S32x64, .f32⟩ : BufTy).Contents (Elt F) → (⟨S32x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x64, .f32⟩) main_call0_v0) (broadcastInDim S32x64 ![] bcast_S_S32x64),
    TRef.binary (TRef.of (T := ⟨S32x64, .f32⟩) main_v51) (TRef.of (T := ⟨S32x64, .f32⟩) main_call0_v0) (TRef.of (T := ⟨S32x64, .f32⟩) main_v52) maximumf,
    binary main_v52 main_arg6 main_v53 ((fun l r => Host.dotGeneral dot_S32x64_S64x1_S32x1_1_0_0_1_n_n none l r) : (⟨S32x64, .f32⟩ : BufTy).Contents (Elt F) → (⟨S64x1, .f32⟩ : BufTy).Contents (Elt F) → (⟨S32x1, .f32⟩ : BufTy).Contents (Elt F)),
    unary main_arg7 main_v54 (broadcastInDim S1x1 ![1] bcast_S1_S1x1_1 : (⟨S1, .f32⟩ : BufTy).Contents (Elt F) → (⟨S1x1, .f32⟩ : BufTy).Contents (Elt F)),
    unary main_v54 main_v55 (broadcastInDim S32x1 ![0, 1] bcast_S1x1_S32x1_0_1 : (⟨S1x1, .f32⟩ : BufTy).Contents (Elt F) → (⟨S32x1, .f32⟩ : BufTy).Contents (Elt F)),
    binary main_v53 main_v55 main_v56 (addf : (⟨S32x1, .f32⟩ : BufTy).Contents (Elt F) → (⟨S32x1, .f32⟩ : BufTy).Contents (Elt F) → (⟨S32x1, .f32⟩ : BufTy).Contents (Elt F)) ]

/-- The first 61: up to the second pooled array. -/
abbrev opsA : List (HloOp τ sig (Elt F)) :=
  [ nullary main_c (constantI S_ 32 0#32),
    unary main_c main_v0 (broadcastInDim S32x512 ![] bcast_S_S32x512 : (⟨S_, .i32⟩ : BufTy).Contents (Elt F) → (⟨S32x512, .i32⟩ : BufTy).Contents (Elt F)),
    binary main_arg0 main_v0 main_v1 (cmpi .slt : (⟨S32x512, .i32⟩ : BufTy).Contents (Elt F) → (⟨S32x512, .i32⟩ : BufTy).Contents (Elt F) → (⟨S32x512, .i1⟩ : BufTy).Contents (Elt F)),
    nullary main_c_0 (constantI S_ 32 600#32),
    unary main_c_0 main_v2 (broadcastInDim S32x512 ![] bcast_S_S32x512 : (⟨S_, .i32⟩ : BufTy).Contents (Elt F) → (⟨S32x512, .i32⟩ : BufTy).Contents (Elt F)),
    binary main_arg0 main_v2 main_v3 (addi : (⟨S32x512, .i32⟩ : BufTy).Contents (Elt F) → (⟨S32x512, .i32⟩ : BufTy).Contents (Elt F) → (⟨S32x512, .i32⟩ : BufTy).Contents (Elt F)),
    ternary main_v1 main_v3 main_arg0 main_v4 (select : (⟨S32x512, .i1⟩ : BufTy).Contents (Elt F) → (⟨S32x512, .i32⟩ : BufTy).Contents (Elt F) → (⟨S32x512, .i32⟩ : BufTy).Contents (Elt F) → (⟨S32x512, .i32⟩ : BufTy).Contents (Elt F)),
    unary main_v4 main_v5 (broadcastInDim S32x512x1 ![0, 1] bcast_S32x512_S32x512x1_0_1 : (⟨S32x512, .i32⟩ : BufTy).Contents (Elt F) → (⟨S32x512x1, .i32⟩ : BufTy).Contents (Elt F)),
    binary main_arg2 main_v5 main_v6 ((fun x i => Host.gather gather_S600x128_S32x512x1_S32x512x128_2_0_n_n_0_2_1128 x i) : (⟨S600x128, .f32⟩ : BufTy).Contents (Elt F) → (⟨S32x512x1, .i32⟩ : BufTy).Contents (Elt F) → (⟨S32x512x128, .f32⟩ : BufTy).Contents (Elt F)),
    nullary main_c_1 (constantI S_ 32 0#32),
    unary main_c_1 main_v7 (broadcastInDim S32x4096 ![] bcast_S_S32x4096 : (⟨S_, .i32⟩ : BufTy).Contents (Elt F) → (⟨S32x4096, .i32⟩ : BufTy).Contents (Elt F)),
    binary main_arg1 main_v7 main_v8 (cmpi .slt : (⟨S32x4096, .i32⟩ : BufTy).Contents (Elt F) → (⟨S32x4096, .i32⟩ : BufTy).Contents (Elt F) → (⟨S32x4096, .i1⟩ : BufTy).Contents (Elt F)),
    nullary main_c_2 (constantI S_ 32 26#32),
    unary main_c_2 main_v9 (broadcastInDim S32x4096 ![] bcast_S_S32x4096 : (⟨S_, .i32⟩ : BufTy).Contents (Elt F) → (⟨S32x4096, .i32⟩ : BufTy).Contents (Elt F)),
    binary main_arg1 main_v9 main_v10 (addi : (⟨S32x4096, .i32⟩ : BufTy).Contents (Elt F) → (⟨S32x4096, .i32⟩ : BufTy).Contents (Elt F) → (⟨S32x4096, .i32⟩ : BufTy).Contents (Elt F)),
    ternary main_v8 main_v10 main_arg1 main_v11 (select : (⟨S32x4096, .i1⟩ : BufTy).Contents (Elt F) → (⟨S32x4096, .i32⟩ : BufTy).Contents (Elt F) → (⟨S32x4096, .i32⟩ : BufTy).Contents (Elt F) → (⟨S32x4096, .i32⟩ : BufTy).Contents (Elt F)),
    unary main_v11 main_v12 (broadcastInDim S32x4096x1 ![0, 1] bcast_S32x4096_S32x4096x1_0_1 : (⟨S32x4096, .i32⟩ : BufTy).Contents (Elt F) → (⟨S32x4096x1, .i32⟩ : BufTy).Contents (Elt F)),
    binary main_arg3 main_v12 main_v13 ((fun x i => Host.gather gather_S26x128_S32x4096x1_S32x4096x128_2_0_n_n_0_2_1128 x i) : (⟨S26x128, .f32⟩ : BufTy).Contents (Elt F) → (⟨S32x4096x1, .i32⟩ : BufTy).Contents (Elt F) → (⟨S32x4096x128, .f32⟩ : BufTy).Contents (Elt F)),
    binary main_v6 main_v13 main_v14 ((fun l r => Host.dotGeneral dot_S32x512x128_S32x4096x128_S32x512x4096_2_2_1_1_0_0 none l r) : (⟨S32x512x128, .f32⟩ : BufTy).Contents (Elt F) → (⟨S32x4096x128, .f32⟩ : BufTy).Contents (Elt F) → (⟨S32x512x4096, .f32⟩ : BufTy).Contents (Elt F)),
    nullary main_cst (constant S_ .f32 0xFF800000#32),
    binary main_v14 main_cst main_v15 ((fun x v => Host.reduce FloatOps.maximumf x v reducesTo_S32x512x4096_S32x512_d2 h_S_) : (⟨S32x512x4096, .f32⟩ : BufTy).Contents (Elt F) → (⟨S_, .f32⟩ : BufTy).Contents (Elt F) → (⟨S32x512, .f32⟩ : BufTy).Contents (Elt F)),
    nullary main_cst_3 (constant S_ .f32 0xFF800000#32),
    binary main_v15 main_cst_3 main_v16 ((fun x v => Host.reduce FloatOps.maximumf x v reducesTo_S32x512_S32_d1 h_S_) : (⟨S32x512, .f32⟩ : BufTy).Contents (Elt F) → (⟨S_, .f32⟩ : BufTy).Contents (Elt F) → (⟨S32, .f32⟩ : BufTy).Contents (Elt F)),
    nullary main_cst_4 (constant S_ .f32 0xFF800000#32),
    unary main_cst_4 main_v17 (broadcastInDim S32 ![] bcast_S_S32 : (⟨S_, .f32⟩ : BufTy).Contents (Elt F) → (⟨S32, .f32⟩ : BufTy).Contents (Elt F)),
    binary main_v17 main_v16 main_v18 (maximumf : (⟨S32, .f32⟩ : BufTy).Contents (Elt F) → (⟨S32, .f32⟩ : BufTy).Contents (Elt F) → (⟨S32, .f32⟩ : BufTy).Contents (Elt F)),
    unary main_v18 main_v19 (broadcastInDim S32x1 ![0] bcast_S32_S32x1_0 : (⟨S32, .f32⟩ : BufTy).Contents (Elt F) → (⟨S32x1, .f32⟩ : BufTy).Contents (Elt F)),
    unary main_v19 main_v20 (broadcastInDim S32x512 ![0, 1] bcast_S32x1_S32x512_0_1 : (⟨S32x1, .f32⟩ : BufTy).Contents (Elt F) → (⟨S32x512, .f32⟩ : BufTy).Contents (Elt F)),
    binary main_v15 main_v20 main_v21 (subf : (⟨S32x512, .f32⟩ : BufTy).Contents (Elt F) → (⟨S32x512, .f32⟩ : BufTy).Contents (Elt F) → (⟨S32x512, .f32⟩ : BufTy).Contents (Elt F)),
    unary main_v21 main_v22 (Host.exp : (⟨S32x512, .f32⟩ : BufTy).Contents (Elt F) → (⟨S32x512, .f32⟩ : BufTy).Contents (Elt F)),
    nullary main_cst_5 (constant S_ .f32 0x00000000#32),
    binary main_v22 main_cst_5 main_v23 ((fun x v => Host.reduceAdd x v reducesTo_S32x512_S32_d1 h_S_) : (⟨S32x512, .f32⟩ : BufTy).Contents (Elt F) → (⟨S_, .f32⟩ : BufTy).Contents (Elt F) → (⟨S32, .f32⟩ : BufTy).Contents (Elt F)),
    unary main_v23 main_v24 (broadcastInDim S32x1 ![0] bcast_S32_S32x1_0 : (⟨S32, .f32⟩ : BufTy).Contents (Elt F) → (⟨S32x1, .f32⟩ : BufTy).Contents (Elt F)),
    unary main_v24 main_v25 (broadcastInDim S32x512 ![0, 1] bcast_S32x1_S32x512_0_1 : (⟨S32x1, .f32⟩ : BufTy).Contents (Elt F) → (⟨S32x512, .f32⟩ : BufTy).Contents (Elt F)),
    binary main_v22 main_v25 main_v26 (Host.divf : (⟨S32x512, .f32⟩ : BufTy).Contents (Elt F) → (⟨S32x512, .f32⟩ : BufTy).Contents (Elt F) → (⟨S32x512, .f32⟩ : BufTy).Contents (Elt F)),
    unary main_v26 main_v27 (broadcastInDim S32x512x1 ![0, 1] bcast_S32x512_S32x512x1_0_1 : (⟨S32x512, .f32⟩ : BufTy).Contents (Elt F) → (⟨S32x512x1, .f32⟩ : BufTy).Contents (Elt F)),
    nullary main_cst_6 (constant S_ .f32 0xFF800000#32),
    binary main_v14 main_cst_6 main_v28 ((fun x v => Host.reduce FloatOps.maximumf x v reducesTo_S32x512x4096_S32x4096_d1 h_S_) : (⟨S32x512x4096, .f32⟩ : BufTy).Contents (Elt F) → (⟨S_, .f32⟩ : BufTy).Contents (Elt F) → (⟨S32x4096, .f32⟩ : BufTy).Contents (Elt F)),
    nullary main_cst_7 (constant S_ .f32 0xFF800000#32),
    binary main_v28 main_cst_7 main_v29 ((fun x v => Host.reduce FloatOps.maximumf x v reducesTo_S32x4096_S32_d1 h_S_) : (⟨S32x4096, .f32⟩ : BufTy).Contents (Elt F) → (⟨S_, .f32⟩ : BufTy).Contents (Elt F) → (⟨S32, .f32⟩ : BufTy).Contents (Elt F)),
    nullary main_cst_8 (constant S_ .f32 0xFF800000#32),
    unary main_cst_8 main_v30 (broadcastInDim S32 ![] bcast_S_S32 : (⟨S_, .f32⟩ : BufTy).Contents (Elt F) → (⟨S32, .f32⟩ : BufTy).Contents (Elt F)),
    binary main_v30 main_v29 main_v31 (maximumf : (⟨S32, .f32⟩ : BufTy).Contents (Elt F) → (⟨S32, .f32⟩ : BufTy).Contents (Elt F) → (⟨S32, .f32⟩ : BufTy).Contents (Elt F)),
    unary main_v31 main_v32 (broadcastInDim S32x1 ![0] bcast_S32_S32x1_0 : (⟨S32, .f32⟩ : BufTy).Contents (Elt F) → (⟨S32x1, .f32⟩ : BufTy).Contents (Elt F)),
    unary main_v32 main_v33 (broadcastInDim S32x4096 ![0, 1] bcast_S32x1_S32x4096_0_1 : (⟨S32x1, .f32⟩ : BufTy).Contents (Elt F) → (⟨S32x4096, .f32⟩ : BufTy).Contents (Elt F)),
    binary main_v28 main_v33 main_v34 (subf : (⟨S32x4096, .f32⟩ : BufTy).Contents (Elt F) → (⟨S32x4096, .f32⟩ : BufTy).Contents (Elt F) → (⟨S32x4096, .f32⟩ : BufTy).Contents (Elt F)),
    unary main_v34 main_v35 (Host.exp : (⟨S32x4096, .f32⟩ : BufTy).Contents (Elt F) → (⟨S32x4096, .f32⟩ : BufTy).Contents (Elt F)),
    nullary main_cst_9 (constant S_ .f32 0x00000000#32),
    binary main_v35 main_cst_9 main_v36 ((fun x v => Host.reduceAdd x v reducesTo_S32x4096_S32_d1 h_S_) : (⟨S32x4096, .f32⟩ : BufTy).Contents (Elt F) → (⟨S_, .f32⟩ : BufTy).Contents (Elt F) → (⟨S32, .f32⟩ : BufTy).Contents (Elt F)),
    unary main_v36 main_v37 (broadcastInDim S32x1 ![0] bcast_S32_S32x1_0 : (⟨S32, .f32⟩ : BufTy).Contents (Elt F) → (⟨S32x1, .f32⟩ : BufTy).Contents (Elt F)),
    unary main_v37 main_v38 (broadcastInDim S32x4096 ![0, 1] bcast_S32x1_S32x4096_0_1 : (⟨S32x1, .f32⟩ : BufTy).Contents (Elt F) → (⟨S32x4096, .f32⟩ : BufTy).Contents (Elt F)),
    binary main_v35 main_v38 main_v39 (Host.divf : (⟨S32x4096, .f32⟩ : BufTy).Contents (Elt F) → (⟨S32x4096, .f32⟩ : BufTy).Contents (Elt F) → (⟨S32x4096, .f32⟩ : BufTy).Contents (Elt F)),
    unary main_v39 main_v40 (broadcastInDim S32x4096x1 ![0, 1] bcast_S32x4096_S32x4096x1_0_1 : (⟨S32x4096, .f32⟩ : BufTy).Contents (Elt F) → (⟨S32x4096x1, .f32⟩ : BufTy).Contents (Elt F)),
    unary main_v27 main_v41 (broadcastInDim S32x512x128 ![0, 1, 2] bcast_S32x512x1_S32x512x128_0_1_2 : (⟨S32x512x1, .f32⟩ : BufTy).Contents (Elt F) → (⟨S32x512x128, .f32⟩ : BufTy).Contents (Elt F)),
    binary main_v6 main_v41 main_v42 (mulf : (⟨S32x512x128, .f32⟩ : BufTy).Contents (Elt F) → (⟨S32x512x128, .f32⟩ : BufTy).Contents (Elt F) → (⟨S32x512x128, .f32⟩ : BufTy).Contents (Elt F)),
    nullary main_cst_10 (constant S_ .f32 0x00000000#32),
    binary main_v42 main_cst_10 main_v43 ((fun x v => Host.reduceAdd x v reducesTo_S32x512x128_S32x128_d1 h_S_) : (⟨S32x512x128, .f32⟩ : BufTy).Contents (Elt F) → (⟨S_, .f32⟩ : BufTy).Contents (Elt F) → (⟨S32x128, .f32⟩ : BufTy).Contents (Elt F)),
    unary main_v40 main_v44 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v13 main_v44 main_v45 (mulf : (⟨S32x4096x128, .f32⟩ : BufTy).Contents (Elt F) → (⟨S32x4096x128, .f32⟩ : BufTy).Contents (Elt F) → (⟨S32x4096x128, .f32⟩ : BufTy).Contents (Elt F)),
    nullary main_cst_11 (constant S_ .f32 0x00000000#32),
    binary main_v45 main_cst_11 main_v46 ((fun x v => Host.reduceAdd x v reducesTo_S32x4096x128_S32x128_d1 h_S_) : (⟨S32x4096x128, .f32⟩ : BufTy).Contents (Elt F) → (⟨S_, .f32⟩ : BufTy).Contents (Elt F) → (⟨S32x128, .f32⟩ : BufTy).Contents (Elt F)) ]

/-- The last 12: the two pooled arrays joined, and the classifier. -/
abbrev opsB : List (HloOp τ sig (Elt F)) :=
  [ binary main_v43 main_v46 main_v47 ((fun a b => concatenate S32x256 1 [⟨S32x128, a⟩, ⟨S32x128, b⟩] concatenates_S32x128_S32x128_S32x256_d1) : (⟨S32x128, .f32⟩ : BufTy).Contents (Elt F) → (⟨S32x128, .f32⟩ : BufTy).Contents (Elt F) → (⟨S32x256, .f32⟩ : BufTy).Contents (Elt F)),
    binary main_v47 main_arg4 main_v48 ((fun l r => Host.dotGeneral dot_S32x256_S256x64_S32x64_1_0_0_1_n_n none l r) : (⟨S32x256, .f32⟩ : BufTy).Contents (Elt F) → (⟨S256x64, .f32⟩ : BufTy).Contents (Elt F) → (⟨S32x64, .f32⟩ : BufTy).Contents (Elt F)),
    unary main_arg5 main_v49 (broadcastInDim S1x64 ![1] bcast_S64_S1x64_1 : (⟨S64, .f32⟩ : BufTy).Contents (Elt F) → (⟨S1x64, .f32⟩ : BufTy).Contents (Elt F)),
    unary main_v49 main_v50 (broadcastInDim S32x64 ![0, 1] bcast_S1x64_S32x64_0_1 : (⟨S1x64, .f32⟩ : BufTy).Contents (Elt F) → (⟨S32x64, .f32⟩ : BufTy).Contents (Elt F)),
    binary main_v48 main_v50 main_v51 (addf : (⟨S32x64, .f32⟩ : BufTy).Contents (Elt F) → (⟨S32x64, .f32⟩ : BufTy).Contents (Elt F) → (⟨S32x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x64, .f32⟩) main_call0_v0) (broadcastInDim S32x64 ![] bcast_S_S32x64),
    TRef.binary (TRef.of (T := ⟨S32x64, .f32⟩) main_v51) (TRef.of (T := ⟨S32x64, .f32⟩) main_call0_v0) (TRef.of (T := ⟨S32x64, .f32⟩) main_v52) maximumf,
    binary main_v52 main_arg6 main_v53 ((fun l r => Host.dotGeneral dot_S32x64_S64x1_S32x1_1_0_0_1_n_n none l r) : (⟨S32x64, .f32⟩ : BufTy).Contents (Elt F) → (⟨S64x1, .f32⟩ : BufTy).Contents (Elt F) → (⟨S32x1, .f32⟩ : BufTy).Contents (Elt F)),
    unary main_arg7 main_v54 (broadcastInDim S1x1 ![1] bcast_S1_S1x1_1 : (⟨S1, .f32⟩ : BufTy).Contents (Elt F) → (⟨S1x1, .f32⟩ : BufTy).Contents (Elt F)),
    unary main_v54 main_v55 (broadcastInDim S32x1 ![0, 1] bcast_S1x1_S32x1_0_1 : (⟨S1x1, .f32⟩ : BufTy).Contents (Elt F) → (⟨S32x1, .f32⟩ : BufTy).Contents (Elt F)),
    binary main_v53 main_v55 main_v56 (addf : (⟨S32x1, .f32⟩ : BufTy).Contents (Elt F) → (⟨S32x1, .f32⟩ : BufTy).Contents (Elt F) → (⟨S32x1, .f32⟩ : BufTy).Contents (Elt F)) ]

theorem ops_split : (ops : List (HloOp τ sig (Elt F))) = opsA ++ opsB := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., nullary_bufs_sub .., binary_bufs_sub .., unary_bufs_sub .., binary_bufs_sub .., nullary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

variable (m : (ℓ : Loc nD τ sig) → Buf (Elt F) ℓ)

/-! ## What the first stretch leaves -/

set_option maxRecDepth 8192 in
set_option maxHeartbeats 8000000 in
/-- In the first pooled buffer: the stage of the reading module. -/
theorem pre_v43 (c : Dev nD) : after (opsA (F := F)) (launchContents m c) (Proc.devRef .tc main_v43)
    = Read.val_main_v43 (F := F) (m ((c.tc : Thread nD τ).loc main_arg0)) (m ((c.tc : Thread nD τ).loc main_arg1)) (m ((c.tc : Thread nD τ).loc main_arg2)) (m ((c.tc : Thread nD τ).loc main_arg3)) := by
  after_results_simp <;> rfl

set_option maxRecDepth 8192 in
set_option maxHeartbeats 8000000 in
/-- In the second pooled buffer: the stage of the reading module. -/
theorem pre_v46 (c : Dev nD) : after (opsA (F := F)) (launchContents m c) (Proc.devRef .tc main_v46)
    = Read.val_main_v46 (F := F) (m ((c.tc : Thread nD τ).loc main_arg0)) (m ((c.tc : Thread nD τ).loc main_arg1)) (m ((c.tc : Thread nD τ).loc main_arg2)) (m ((c.tc : Thread nD τ).loc main_arg3)) := by
  after_results_simp <;> rfl

set_option maxRecDepth 8192 in
theorem pre_arg4 (c : Dev nD) : after (opsA (F := F)) (launchContents m c) (Proc.devRef .tc main_arg4) = m ((c.tc : Thread nD τ).loc main_arg4) := by
  after_results_simp <;> rfl
set_option maxRecDepth 8192 in
theorem pre_arg5 (c : Dev nD) : after (opsA (F := F)) (launchContents m c) (Proc.devRef .tc main_arg5) = m ((c.tc : Thread nD τ).loc main_arg5) := by
  after_results_simp <;> rfl
set_option maxRecDepth 8192 in
theorem pre_arg6 (c : Dev nD) : after (opsA (F := F)) (launchContents m c) (Proc.devRef .tc main_arg6) = m ((c.tc : Thread nD τ).loc main_arg6) := by
  after_results_simp <;> rfl
set_option maxRecDepth 8192 in
theorem pre_arg7 (c : Dev nD) : after (opsA (F := F)) (launchContents m c) (Proc.devRef .tc main_arg7) = m ((c.tc : Thread nD τ).loc main_arg7) := by
  after_results_simp <;> rfl

/-! ## What the second stretch makes of it -/

set_option maxRecDepth 8192 in
/-- From any contents W the last 12 operations leave, in the result buffer, the classifier of W's two pooled buffers
    and W's four parameter buffers. -/
theorem tail_of_after (W : Valuation τ sig (Elt F)) : after (opsB (F := F)) W (Proc.devRef .tc main_v56)
    = tail (W (Proc.devRef .tc main_v43)) (W (Proc.devRef .tc main_v46)) (W (Proc.devRef .tc main_arg4))
        (W (Proc.devRef .tc main_arg5)) (W (Proc.devRef .tc main_arg6)) (W (Proc.devRef .tc main_arg7)) := by
  after_results_simp <;> rfl

/-! ## The run -/

/-- The result: the classifier of the two pooled stages and the four parameter arrays. -/
def res (c : Dev nD) : Buf (Elt F) ((c.tc : Thread nD τ).loc main_v56) :=
  tail (Read.val_main_v43 (F := F) (m ((c.tc : Thread nD τ).loc main_arg0)) (m ((c.tc : Thread nD τ).loc main_arg1)) (m ((c.tc : Thread nD τ).loc main_arg2)) (m ((c.tc : Thread nD τ).loc main_arg3))) (Read.val_main_v46 (F := F) (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5)) (m ((c.tc : Thread nD τ).loc main_arg6)) (m ((c.tc : Thread nD τ).loc main_arg7))

theorem res_of_after (c : Dev nD) : after (ops (F := F)) (launchContents m c) (Proc.devRef .tc main_v56) = res m c := by
  rw [ops_split, Cert.Lib.after_append, tail_of_after, pre_v43, pre_v46, pre_arg4, pre_arg5, pre_arg6, pre_arg7]
  rfl

set_option maxRecDepth 8192 in
set_option maxHeartbeats 29200000 in
/-- On every device, from any memory with zero counters: every weakly fair execution of @main terminates with the result
    at the classifier of the two pooled stages and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v56) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v56).trans (res_of_after m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefValue

end
-- ==== Proof.RefPool.lean ====
/-
  THE REFERENCE'S TWO POOLED ARRAYS, AT AN ENTRY.

  The reference gathers the two feature arrays D (32 batches of 512 rows) and P (32 batches of 4096 rows), 128 numbers a
  row, takes the batched affinity D·Pᵀ, its maxima along each of its two long axes, a softmax of each along the rows of
  the batch, and adds up the rows of D, and of P, with those weights. Read at batch b and entry h, stage by stage, that
  is the pooled vector of batch b's two blocks. The softmax's maximum is started from −∞ once more than the kernel's,
  which changes nothing; the sums start from the float zero.
-/
import proofs.«153702_j91250875171209_2_alg».proof.Proof.RefRead
import proofs.«153702_j91250875171209_2_alg».proof.Proof.Spec

noncomputable section

open scoped BigOperators

namespace Cert.ReferenceIdeal.RefPool

open Cert.ReferenceIdeal Cert.ReferenceIdeal.Gen Cert.ReferenceIdeal.Read Idealize.ShloMosaic Idealize.ShloMosaic.ValueIdx Cert.Pool

variable (x0 : (⟨S32x512, .i32⟩ : BufTy).Contents (Elt Ideal)) (x1 : (⟨S32x4096, .i32⟩ : BufTy).Contents (Elt Ideal))
  (x2 : (⟨S600x128, .f32⟩ : BufTy).Contents (Elt Ideal)) (x3 : (⟨S26x128, .f32⟩ : BufTy).Contents (Elt Ideal))

/-- Batch b's block of the gathered 512-row array. -/
abbrev dB (b : Fin 32) : Fin 512 → Fin 128 → EReal := batchRows (B := 32) (L := 512) (H := 128) (val_main_v6 (F := Ideal) x0 x2) b
/-- Batch b's block of the gathered 4096-row array. -/
abbrev pB (b : Fin 32) : Fin 4096 → Fin 128 → EReal := batchRows (B := 32) (L := 4096) (H := 128) (val_main_v13 (F := Ideal) x1 x3) b

/-- The float zero a sum starts from is the number zero. -/
theorem zero_init : (Ideal.ofBits .f32 0x00000000#32 : EReal) = 0 := Ideal.ofBits_zero_f32

/-- A maximum from −∞ over a family given as a composite x ∘ g, once each x (g k) is known. Stated over variables:
    nothing of x is opened. -/
theorem fmax_of_comp {α : Type} {n : ℕ} (x : α → EReal) (g : Fin n → α) (f : Fin n → EReal) (h : ∀ k, x (g k) = f k) :
    (Finset.univ : Finset (Fin n)).fold max negInf (x ∘ g) = fmax f :=
  congrArg (fun q => Finset.fold max negInf q (Finset.univ : Finset (Fin n))) (funext h)

/-! ## The affinity and its maxima -/

/-- The batched product at (b, l, m): the affinity of row l and row m of batch b. -/
theorem v14_at (b : Fin 32) (l : Fin 512) (m : Fin 4096) :
    val_main_v14 (F := Ideal) x0 x1 x2 x3 (ix3 b l m) = aff (dB x0 x2 b) (pB x1 x3 b) l m := by
  refine (val_main_v14_apply x0 x1 x2 x3 (ix3 b l m)).trans ?_
  refine Finset.sum_congr rfl fun k _ => congrArg₂ (· * ·) (congrArg _ ?_) (congrArg _ ?_)
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

/-- The maximum over the last axis, at (b, l): the largest affinity of row l. -/
theorem v15_at (b : Fin 32) (l : Fin 512) :
    val_main_v15 (F := Ideal) x0 x1 x2 x3 (ix2 b l) = rowMax (dB x0 x2 b) (pB x1 x3 b) l := by
  unfold val_main_v15
  have hR : S32x512x4096.Reduces [2] S32x512 := by decide
  refine (Host.reduce_eq_fold_single FloatOps.maximumf _ _ reducesTo_S32x512x4096_S32x512_d2 hR h_S_ (ix2 b l)).trans ?_
  have hf : (val_main_v14 (F := Ideal) x0 x1 x2 x3 ∘ hR.lift (ix2 b l)) = fun m : Fin 4096 => aff (dB x0 x2 b) (pB x1 x3 b) l m :=
    funext fun m => (congrArg (val_main_v14 (F := Ideal) x0 x1 x2 x3) (show hR.lift (ix2 b l) m = ix3 b l (⟨m.val, m.isLt⟩ : Fin 4096) from by
      funext c; apply Fin.ext; fin_cases c <;> rfl)).trans (v14_at x0 x1 x2 x3 b l ⟨m.val, m.isLt⟩)
  exact congrArg (fun f => Finset.fold max (Ideal.ofBits .f32 0xFF800000#32) f (Finset.univ : Finset (Fin 4096))) hf

/-- The maximum over the middle axis, at (b, m): the largest affinity of row m of the second block. -/
theorem v28_at (b : Fin 32) (m : Fin 4096) :
    val_main_v28 (F := Ideal) x0 x1 x2 x3 (ix2 b m) = colMax (dB x0 x2 b) (pB x1 x3 b) m := by
  unfold val_main_v28
  have hR : S32x512x4096.Reduces [1] S32x4096 := by decide
  refine (Host.reduce_eq_fold_single FloatOps.maximumf _ _ reducesTo_S32x512x4096_S32x4096_d1 hR h_S_ (ix2 b m)).trans ?_
  have hf : (val_main_v14 (F := Ideal) x0 x1 x2 x3 ∘ hR.lift (ix2 b m)) = fun l : Fin 512 => aff (dB x0 x2 b) (pB x1 x3 b) l m :=
    funext fun l => (congrArg (val_main_v14 (F := Ideal) x0 x1 x2 x3) (show hR.lift (ix2 b m) l = ix3 b (⟨l.val, l.isLt⟩ : Fin 512) m from by
      funext c; apply Fin.ext; fin_cases c <;> rfl)).trans (v14_at x0 x1 x2 x3 b ⟨l.val, l.isLt⟩ m)
  exact congrArg (fun f => Finset.fold max (Ideal.ofBits .f32 0xFF800000#32) f (Finset.univ : Finset (Fin 512))) hf

/-! ## The softmax over the 512 rows -/

/-- The maximum of the row maxima of batch b, started from −∞ twice. -/
theorem v18_at (b : Fin 32) : val_main_v18 (F := Ideal) x0 x1 x2 x3 (ix1 b) = fmax (rowMax (dB x0 x2 b) (pB x1 x3 b)) := by
  refine Eq.trans ?_ (max_negInf_fmax _)
  refine congrArg₂ max rfl ?_
  unfold val_main_v16
  have hR : S32x512.Reduces [1] S32 := by decide
  refine (Host.reduce_eq_fold_single FloatOps.maximumf _ _ reducesTo_S32x512_S32_d1 hR h_S_ (ix1 b)).trans ?_
  exact fmax_of_comp (n := 512) (val_main_v15 (F := Ideal) x0 x1 x2 x3) (hR.lift (ix1 b)) (rowMax (dB x0 x2 b) (pB x1 x3 b)) fun l =>
    (congrArg (val_main_v15 (F := Ideal) x0 x1 x2 x3) (show hR.lift (ix1 b) l = ix2 b (⟨l.val, l.isLt⟩ : Fin 512) from by
      funext c; apply Fin.ext; fin_cases c <;> rfl)).trans (v15_at x0 x1 x2 x3 b ⟨l.val, l.isLt⟩)

/-- The exponentials, at (b, l). -/
theorem v22_at (b : Fin 32) (l : Fin 512) : val_main_v22 (F := Ideal) x0 x1 x2 x3 (ix2 b l)
    = Ideal.exp (rowMax (dB x0 x2 b) (pB x1 x3 b) l - fmax (rowMax (dB x0 x2 b) (pB x1 x3 b))) := by
  rw [val_main_v22_apply, val_main_v21_apply, v15_at, val_main_v20_apply, val_main_v19_apply]
  have e : idx_main_v19 (idx_main_v20 (ix2 b l)) = ix1 b := funext fun a => match a with | ⟨0, _⟩ => rfl
  rw [e, v18_at]
  rfl

/-- The softmax weights, at (b, l). -/
theorem v26_at (b : Fin 32) (l : Fin 512) :
    val_main_v26 (F := Ideal) x0 x1 x2 x3 (ix2 b l) = softw (rowMax (dB x0 x2 b) (pB x1 x3 b)) l := by
  rw [val_main_v26_apply, v22_at, val_main_v25_apply, val_main_v24_apply]
  have e : idx_main_v24 (idx_main_v25 (ix2 b l)) = ix1 b := funext fun a => match a with | ⟨0, _⟩ => rfl
  rw [e, val_main_v23_apply]
  unfold softw
  simp only [Ideal.hostDivf_def]
  refine congrArg (Ideal.div _) ?_
  refine (congrArg (· + _) zero_init).trans ((zero_add _).trans ?_)
  refine Finset.sum_congr rfl fun l' _ => ?_
  have e' : idx_main_v23 (ix1 b) l' = ix2 b l' := funext fun a => match a with | ⟨0, _⟩ => rfl | ⟨1, _⟩ => rfl
  rw [e', v22_at]

/-- The first pooled array, at (b, h): the pooled vector of batch b's 512-row block. -/
theorem v43_at (b : Fin 32) (h : Fin 128) :
    val_main_v43 (F := Ideal) x0 x1 x2 x3 (ix2 b h) = poolD (dB x0 x2 b) (pB x1 x3 b) h := by
  refine (val_main_v43_apply x0 x1 x2 x3 (ix2 b h)).trans ?_
  refine (congrArg (· + _) zero_init).trans ((zero_add _).trans ?_)
  unfold poolD
  refine Finset.sum_congr rfl fun l _ => ?_
  have e : idx_main_v43 (ix2 b h) l = ix3 b l h := funext fun a => match a with | ⟨0, _⟩ => rfl | ⟨1, _⟩ => rfl | ⟨2, _⟩ => rfl
  rw [e]
  rw [val_main_v42_apply, val_main_v41_apply, val_main_v27_apply]
  have e' : idx_main_v27 (idx_main_v41 (ix3 b l h)) = ix2 b l := funext fun a => match a with | ⟨0, _⟩ => rfl | ⟨1, _⟩ => rfl
  rw [e', v26_at]
  rfl

/-! ## The softmax over the 4096 rows -/

/-- The maximum of the maxima of batch b's second block, started from −∞ twice. -/
theorem v31_at (b : Fin 32) : val_main_v31 (F := Ideal) x0 x1 x2 x3 (ix1 b) = fmax (colMax (dB x0 x2 b) (pB x1 x3 b)) := by
  refine Eq.trans ?_ (max_negInf_fmax _)
  refine congrArg₂ max rfl ?_
  unfold val_main_v29
  have hR : S32x4096.Reduces [1] S32 := by decide
  refine (Host.reduce_eq_fold_single FloatOps.maximumf _ _ reducesTo_S32x4096_S32_d1 hR h_S_ (ix1 b)).trans ?_
  exact fmax_of_comp (n := 4096) (val_main_v28 (F := Ideal) x0 x1 x2 x3) (hR.lift (ix1 b)) (colMax (dB x0 x2 b) (pB x1 x3 b)) fun m =>
    (congrArg (val_main_v28 (F := Ideal) x0 x1 x2 x3) (show hR.lift (ix1 b) m = ix2 b (⟨m.val, m.isLt⟩ : Fin 4096) from by
      funext c; apply Fin.ext; fin_cases c <;> rfl)).trans (v28_at x0 x1 x2 x3 b ⟨m.val, m.isLt⟩)

/-- The exponentials, at (b, m). -/
theorem v35_at (b : Fin 32) (m : Fin 4096) : val_main_v35 (F := Ideal) x0 x1 x2 x3 (ix2 b m)
    = Ideal.exp (colMax (dB x0 x2 b) (pB x1 x3 b) m - fmax (colMax (dB x0 x2 b) (pB x1 x3 b))) := by
  rw [val_main_v35_apply, val_main_v34_apply, v28_at, val_main_v33_apply, val_main_v32_apply]
  have e : idx_main_v32 (idx_main_v33 (ix2 b m)) = ix1 b := funext fun a => match a with | ⟨0, _⟩ => rfl
  rw [e, v31_at]
  rfl

/-- The softmax weights, at (b, m). -/
theorem v39_at (b : Fin 32) (m : Fin 4096) :
    val_main_v39 (F := Ideal) x0 x1 x2 x3 (ix2 b m) = softw (colMax (dB x0 x2 b) (pB x1 x3 b)) m := by
  rw [val_main_v39_apply, v35_at, val_main_v38_apply, val_main_v37_apply]
  have e : idx_main_v37 (idx_main_v38 (ix2 b m)) = ix1 b := funext fun a => match a with | ⟨0, _⟩ => rfl
  rw [e, val_main_v36_apply]
  unfold softw
  simp only [Ideal.hostDivf_def]
  refine congrArg (Ideal.div _) ?_
  refine (congrArg (· + _) zero_init).trans ((zero_add _).trans ?_)
  refine Finset.sum_congr rfl fun m' _ => ?_
  have e' : idx_main_v36 (ix1 b) m' = ix2 b m' := funext fun a => match a with | ⟨0, _⟩ => rfl | ⟨1, _⟩ => rfl
  rw [e', v35_at]

/-- The second pooled array, at (b, h): the pooled vector of batch b's 4096-row block. -/
theorem v46_at (b : Fin 32) (h : Fin 128) :
    val_main_v46 (F := Ideal) x0 x1 x2 x3 (ix2 b h) = poolP (dB x0 x2 b) (pB x1 x3 b) h := by
  refine (val_main_v46_apply x0 x1 x2 x3 (ix2 b h)).trans ?_
  refine (congrArg (· + _) zero_init).trans ((zero_add _).trans ?_)
  unfold poolP
  refine Finset.sum_congr rfl fun m _ => ?_
  have e : idx_main_v46 (ix2 b h) m = ix3 b m h := funext fun a => match a with | ⟨0, _⟩ => rfl | ⟨1, _⟩ => rfl | ⟨2, _⟩ => rfl
  rw [e]
  rw [val_main_v45_apply, val_main_v44_apply, val_main_v40_apply]
  have e' : idx_main_v40 (idx_main_v44 (ix3 b m h)) = ix2 b m := funext fun a => match a with | ⟨0, _⟩ => rfl | ⟨1, _⟩ => rfl
  rw [e', v39_at]
  rfl

end Cert.ReferenceIdeal.RefPool

end
-- ==== Proof.LibSqueezeMid.lean ====
/-
  A UNIT AXIS IN THE MIDDLE DROPPED, READ AT AN ELEMENT.

  An array of shape [a, 1, b] recast to shape [a, b] holds, at (i, j), the operand's entry (i, 0, j): both positions are
  the (i·b + j)-th in row-major order.
-/
import Idealize.ShloMosaic.Lib.Pipeline.Value
import Idealize.ShloMosaic.Lib.ValueIdx

noncomputable section

namespace Cert.Lib

open Idealize.ShloMosaic Idealize.ShloMosaic.ValueIdx

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib

end
-- ==== Proof.Bridge.lean ====
/-
  THE TWO PROGRAMS COMPUTE ONE FUNCTION.

  Both programs gather the same rows of the two embedding tables, and both end with the same classifier. In between, the
  kernel program's two result arrays, their unit axis dropped, are the reference's two pooled arrays: at (b, h) both are
  entry h of the pooled vector of batch b's two blocks — the kernel's by what its body stores at the grid point of batch b,
  the reference's stage by stage. So from memories that agree on the arguments the two runs end with equal results.
-/
import proofs.«153702_j91250875171209_2_alg».proof.Defs
import proofs.«153702_j91250875171209_2_alg».proof.Proof.Gen.Pre_finite_inputs
import proofs.«153702_j91250875171209_2_alg».proof.Proof.KernelRun
import proofs.«153702_j91250875171209_2_alg».proof.Proof.RefRun
import proofs.«153702_j91250875171209_2_alg».proof.Proof.RefPool
import proofs.«153702_j91250875171209_2_alg».proof.Proof.LibSqueezeMid

set_option maxRecDepth 16384

noncomputable section

open Idealize.ShloMosaic Idealize.ShloMosaic.TcCoe Idealize.SL.Sem

namespace Cert.Bridge

open Idealize.ShloMosaic.ValueIdx Cert.Pool Cert.KernelIdeal.PoolValue

variable (x0 : (⟨Cert.KernelIdeal.S32x512, .i32⟩ : BufTy).Contents (Elt Ideal)) (x1 : (⟨Cert.KernelIdeal.S32x4096, .i32⟩ : BufTy).Contents (Elt Ideal))
  (x2 : (⟨Cert.KernelIdeal.S600x128, .f32⟩ : BufTy).Contents (Elt Ideal)) (x3 : (⟨Cert.KernelIdeal.S26x128, .f32⟩ : BufTy).Contents (Elt Ideal))

/-- The two programs gather the same rows of the first table. -/
theorem gD_eq : gD x0 x2 = Cert.ReferenceIdeal.Read.val_main_v6 (F := Ideal) x0 x2 := rfl
/-- The two programs gather the same rows of the second table. -/
theorem gP_eq : gP x1 x3 = Cert.ReferenceIdeal.Read.val_main_v13 (F := Ideal) x1 x3 := rfl

/-- The two programs end with the same classifier. -/
theorem tail_eq (dv pv : FVec Ideal Cert.KernelIdeal.S32x128 .f32) (w1 : FVec Ideal Cert.KernelIdeal.S256x64 .f32) (b1 : FVec Ideal Cert.KernelIdeal.S64 .f32)
    (w2 : FVec Ideal Cert.KernelIdeal.S64x1 .f32) (b2 : FVec Ideal Cert.KernelIdeal.S1 .f32) :
    tailK dv pv w1 b1 w2 b2 = Cert.ReferenceIdeal.RefValue.tail (F := Ideal) dv pv w1 b1 w2 b2 := rfl

/-- The kernel program's first result array, its unit axis dropped, is the reference's first pooled array. -/
theorem pooledD_eq :
    shapeCast Cert.KernelIdeal.S32x128 (GD (gD x0 x2) (gP x1 x3)) Cert.KernelIdeal.Gen.shapeCasts_S32x1x128_S32x128
      = Cert.ReferenceIdeal.Read.val_main_v43 (F := Ideal) x0 x1 x2 x3 := by
  funext i
  obtain ⟨b, h, rfl⟩ : ∃ (b : Fin 32) (h : Fin 128), i = ix2 b h := ⟨i 0, i 1, eq_ix2 i⟩
  refine (Cert.Lib.shapeCast_a1b_ab_apply _ _ b h).trans ?_
  rw [Cert.ReferenceIdeal.RefPool.v43_at, gD_eq, gP_eq]
  rfl

/-- The kernel program's second result array, its unit axis dropped, is the reference's second pooled array. -/
theorem pooledP_eq :
    shapeCast Cert.KernelIdeal.S32x128 (GP (gD x0 x2) (gP x1 x3)) Cert.KernelIdeal.Gen.shapeCasts_S32x1x128_S32x128
      = Cert.ReferenceIdeal.Read.val_main_v46 (F := Ideal) x0 x1 x2 x3 := by
  funext i
  obtain ⟨b, h, rfl⟩ : ∃ (b : Fin 32) (h : Fin 128), i = ix2 b h := ⟨i 0, i 1, eq_ix2 i⟩
  refine (Cert.Lib.shapeCast_a1b_ab_apply _ _ b h).trans ?_
  rw [Cert.ReferenceIdeal.RefPool.v46_at, gD_eq, gP_eq]
  rfl

/-- From memories agreeing on the arguments both idealized programs run and end with equal results. -/
theorem algebraic : Cert.algebraic_KernelIdeal_ReferenceIdeal := by
  intro m ρ m' ρ' _ hagree
  refine ⟨fun c => resK m c, Cert.KernelIdeal.PoolValue.run m ρ, ?_⟩
  refine (θ_run Cert.ReferenceIdeal.defs _ _).mono (fun _ h c => ⟨(h c).1.trans ?_, (h c).2⟩) (Cert.ReferenceIdeal.RefValue.run (F := Ideal) m' ρ')
  obtain ⟨e0, e1, e2, e3, e4, e5, e6, e7⟩ := hagree c
  show Cert.ReferenceIdeal.RefValue.res m' c = resK m c
  unfold Cert.ReferenceIdeal.RefValue.res resK
  rw [e0, e1, e2, e3, e4, e5, e6, e7, tail_eq, pooledD_eq, pooledP_eq]

end Cert.Bridge

end
-- ==== Proof.lean ====
/- The certificate's claims, assembled.
   Both idealized programs compute, for each of 32 batches, the attention pooling of the batch's two gathered feature
   blocks (Proof/Spec.lean) and pass the two pooled arrays through one classifier. The kernel's frames are the generated
   ones; the reference's frame is its run (Proof/RefRun.lean) with the result dropped; the idealization rewrote no
   operation, so `preserves` asks nothing; the two runs' results are equal by Proof/Bridge.lean. -/
import proofs.«153702_j91250875171209_2_alg».proof.Defs
import proofs.«153702_j91250875171209_2_alg».proof.Proof.Gen.Kernel
import proofs.«153702_j91250875171209_2_alg».proof.Proof.Gen.Kernel.Skeleton
import proofs.«153702_j91250875171209_2_alg».proof.Proof.Gen.Kernel.Launch
import proofs.«153702_j91250875171209_2_alg».proof.Proof.Gen.Kernel.Points
import proofs.«153702_j91250875171209_2_alg».proof.Proof.Gen.Kernel.Frame
import proofs.«153702_j91250875171209_2_alg».proof.Proof.Gen.KernelIdeal
import proofs.«153702_j91250875171209_2_alg».proof.Proof.Gen.KernelIdeal.Skeleton
import proofs.«153702_j91250875171209_2_alg».proof.Proof.Gen.KernelIdeal.Launch
import proofs.«153702_j91250875171209_2_alg».proof.Proof.Gen.KernelIdeal.Points
import proofs.«153702_j91250875171209_2_alg».proof.Proof.Gen.KernelIdeal.Frame
import proofs.«153702_j91250875171209_2_alg».proof.Proof.Gen.ReferenceIdeal
import proofs.«153702_j91250875171209_2_alg».proof.Proof.Gen.Pre_finite_inputs
import proofs.«153702_j91250875171209_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefValue.run (F := Ideal) m ρ),
  trivial,
  Cert.Bridge.algebraic⟩

end Cert.Proof

end
